-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S1000000 : Shape := ⟨1, ![1000000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64 .f32) (main_arg10 : FVec F S10x64 .f32) (main_arg11 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S10x64 .f32 := Host.absf main_arg10
  let main_cst_14 : FVec F S_ .f32 := constant S_ .f32 0x7F800000#32
  let main_v40 : FVec F S10x64 .f32 := broadcastInDim S10x64 ![] bcast_S_S10x64 main_cst_14
  let main_v41 : IVec S10x64 1 := cmpf .olt main_v39 main_v40
  let main_c_15 : IVec S_ 1 := constantI S_ 1 1#1
  let main_v42 : IVec S_ 1 := (fun x v => Host.reduce IntOp.andi x v reducesTo_S10x64_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S10x64 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1000000 32) (main_arg2 : IVec S100000 32) (main_arg3 : FVec F S1000000 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S10x64 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S1000000 : Shape := ⟨1, ![1000000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩
abbrev S128x64 : Shape := ⟨2, ![128, 64]⟩
abbrev S100000x1 : Shape := ⟨2, ![100000, 1]⟩
abbrev S1x10 : Shape := ⟨2, ![1, 10]⟩
abbrev S128x10 : Shape := ⟨2, ![128, 10]⟩
abbrev S64x10 : Shape := ⟨2, ![64, 10]⟩
abbrev S128 : Shape := ⟨1, ![128]⟩
abbrev S128x1 : Shape := ⟨2, ![128, 1]⟩

abbrev nBuf : Space → Nat
  | .hbm => 117
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S1000000, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S10x64, .f32⟩
  | .hbm, ⟨11, _⟩ => ⟨S10, .f32⟩
  | .hbm, ⟨12, _⟩ => ⟨S100000, .i32⟩
  | .hbm, ⟨13, _⟩ => ⟨S1x1000000, .i32⟩
  | .hbm, ⟨14, _⟩ => ⟨S1000000, .i32⟩
  | .hbm, ⟨15, _⟩ => ⟨S1100000, .i32⟩
  | .hbm, ⟨16, _⟩ => ⟨S1x1000000, .i32⟩
  | .hbm, ⟨17, _⟩ => ⟨S1000000, .i32⟩
  | .hbm, ⟨18, _⟩ => ⟨S1100000, .i32⟩
  | .hbm, ⟨19, _⟩ => ⟨S_, .f32⟩
  | .hbm, ⟨20, _⟩ => ⟨S100000, .f32⟩
  | .hbm, ⟨21, _⟩ => ⟨S1100000, .f32⟩
  | .hbm, ⟨22, _⟩ => ⟨S_, .f32⟩
  | .hbm, ⟨23, _⟩ => ⟨S100000, .f32⟩
  | .hbm, ⟨24, _⟩ => ⟨S1100000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S_, .i32⟩
  | .hbm, ⟨45, _⟩ => ⟨S1100000, .i32⟩
  | .hbm, ⟨46, _⟩ => ⟨S1100000, .i1⟩
  | .hbm, ⟨47, _⟩ => ⟨S_, .i32⟩
  | .hbm, ⟨48, _⟩ => ⟨S1100000, .i32⟩
  | .hbm, ⟨49, _⟩ => ⟨S1100000, .i32⟩
  | .hbm, ⟨50, _⟩ => ⟨S1100000, .i32⟩
  | .hbm, ⟨51, _⟩ => ⟨S1100000x1, .i32⟩
  | .hbm, ⟨52, _⟩ => ⟨S1100000, .f32⟩
  | .hbm, ⟨53, _⟩ => ⟨S1100000, .f32⟩
  | .hbm, ⟨54, _⟩ => ⟨S100000x64, .f32⟩
  | .hbm, ⟨55, _⟩ => ⟨S_, .i32⟩
  | .hbm, ⟨56, _⟩ => ⟨S1100000, .i32⟩
  | .hbm, ⟨57, _⟩ => ⟨S1100000, .i1⟩
  | .hbm, ⟨58, _⟩ => ⟨S_, .i32⟩
  | .hbm, ⟨59, _⟩ => ⟨S1100000, .i32⟩
  | .hbm, ⟨60, _⟩ => ⟨S1100000, .i32⟩
  | .hbm, ⟨61, _⟩ => ⟨S1100000, .i32⟩
  | .hbm, ⟨62, _⟩ => ⟨S1100000x1, .i32⟩
  | .hbm, ⟨63, _⟩ => ⟨S1100000x64, .f32⟩
  | .hbm, ⟨64, _⟩ => ⟨S1100000x1, .f32⟩
  | .hbm, ⟨65, _⟩ => ⟨S1100000x64, .f32⟩
  | .hbm, ⟨66, _⟩ => ⟨S1100000x64, .f32⟩
  | .hbm, ⟨67, _⟩ => ⟨S_, .f32⟩
  | .hbm, ⟨68, _⟩ => ⟨S100000x64, .f32⟩
  | .hbm, ⟨69, _⟩ => ⟨S1100000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1100000, .i32⟩
  | .hbm, ⟨76, _⟩ => ⟨S1100000, .i1⟩
  | .hbm, ⟨77, _⟩ => ⟨S_, .i32⟩
  | .hbm, ⟨78, _⟩ => ⟨S1100000, .i32⟩
  | .hbm, ⟨79, _⟩ => ⟨S1100000, .i32⟩
  | .hbm, ⟨80, _⟩ => ⟨S1100000, .i32⟩
  | .hbm, ⟨81, _⟩ => ⟨S1100000x1, .i32⟩
  | .hbm, ⟨82, _⟩ => ⟨S1100000x64, .f32⟩
  | .hbm, ⟨83, _⟩ => ⟨S1100000x1, .f32⟩
  | .hbm, ⟨84, _⟩ => ⟨S1100000x64, .f32⟩
  | .hbm, ⟨85, _⟩ => ⟨S1100000x64, .f32⟩
  | .hbm, ⟨86, _⟩ => ⟨S_, .f32⟩
  | .hbm, ⟨87, _⟩ => ⟨S100000x64, .f32⟩
  | .hbm, ⟨88, _⟩ => ⟨S1100000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1100000, .i32⟩
  | .hbm, ⟨95, _⟩ => ⟨S1100000, .i1⟩
  | .hbm, ⟨96, _⟩ => ⟨S_, .i32⟩
  | .hbm, ⟨97, _⟩ => ⟨S1100000, .i32⟩
  | .hbm, ⟨98, _⟩ => ⟨S1100000, .i32⟩
  | .hbm, ⟨99, _⟩ => ⟨S1100000, .i32⟩
  | .hbm, ⟨100, _⟩ => ⟨S1100000x1, .i32⟩
  | .hbm, ⟨101, _⟩ => ⟨S1100000x64, .f32⟩
  | .hbm, ⟨102, _⟩ => ⟨S1100000x1, .f32⟩
  | .hbm, ⟨103, _⟩ => ⟨S1100000x64, .f32⟩
  | .hbm, ⟨104, _⟩ => ⟨S1100000x64, .f32⟩
  | .hbm, ⟨105, _⟩ => ⟨S_, .f32⟩
  | .hbm, ⟨106, _⟩ => ⟨S100000x64, .f32⟩
  | .hbm, ⟨107, _⟩ => ⟨S1100000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S_, .f32⟩
  | .hbm, ⟨112, _⟩ => ⟨S128x64, .f32⟩
  | .hbm, ⟨113, _⟩ => ⟨S100000x1, .i32⟩
  | .hbm, ⟨114, _⟩ => ⟨S128x64, .f32⟩
  | .hbm, ⟨115, _⟩ => ⟨S1x10, .f32⟩
  | .hbm, ⟨116, _⟩ => ⟨S128x10, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S128x64, .f32⟩
  | .local _ .vmem, ⟨31, _⟩ => ⟨S10x64, .f32⟩
  | .local _ .vmem, ⟨32, _⟩ => ⟨S1x10, .f32⟩
  | .local _ .vmem, ⟨33, _⟩ => ⟨S128x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S10x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S128x64 : S_.BroadcastsInDim S128x64 (![] : Fin 0 → Fin S128x64.rank)
  bcast_S100000_S100000x1_0 : S100000.BroadcastsInDim S100000x1 (![0] : Fin 1 → Fin S100000x1.rank)
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10x64_S10x64_0_0 : ∀ a, (![0, 0] : Fin 2 → Nat) a + S10x64.size a ≤ S10x64.size a
  h_S10x64 : 0 < S10x64.numel
  transposes_S10x64_p1_0_S64x10 : S10x64.Transposes [1, 0] S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x64.size a ≤ S128x64.size a
  hwx6_0 : ∀ i : grid6.Coords, EltTy.bits .f32 = 32 ∨ (Rect.block (s := S128x64) S128x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10x64.size a ≤ S10x64.size a
  hwx6_1 : ∀ i : grid6.Coords, EltTy.bits .f32 = 32 ∨ (Rect.block (s := S10x64) S10x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x10.size a ≤ S128x10.size a
  hwx6_3 : ∀ i : grid6.Coords, EltTy.bits .f32 = 32 ∨ (Rect.block (s := S128x10) S128x10.size (cc6_transform_3 i) (hinb6_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v82) S128x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S10x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v83) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S128x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S1000000 : Shape := ⟨1, ![1000000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩
abbrev S128x64 : Shape := ⟨2, ![128, 64]⟩
abbrev S100000x1 : Shape := ⟨2, ![100000, 1]⟩
abbrev S64x10 : Shape := ⟨2, ![64, 10]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 147
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S1000000, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S10x64, .f32⟩
  | 11 => ⟨S10, .f32⟩
  | 12 => ⟨S100000, .i32⟩
  | 13 => ⟨S1x1000000, .i32⟩
  | 14 => ⟨S1000000, .i32⟩
  | 15 => ⟨S1100000, .i32⟩
  | 16 => ⟨S1x1000000, .i32⟩
  | 17 => ⟨S1000000, .i32⟩
  | 18 => ⟨S1100000, .i32⟩
  | 19 => ⟨S_, .f32⟩
  | 20 => ⟨S100000, .f32⟩
  | 21 => ⟨S1100000, .f32⟩
  | 22 => ⟨S_, .f32⟩
  | 23 => ⟨S100000, .f32⟩
  | 24 => ⟨S1100000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1100000, .i32⟩
  | 36 => ⟨S1100000, .i1⟩
  | 37 => ⟨S_, .i32⟩
  | 38 => ⟨S1100000, .i32⟩
  | 39 => ⟨S1100000, .i32⟩
  | 40 => ⟨S1100000, .i32⟩
  | 41 => ⟨S1100000x1, .i32⟩
  | 42 => ⟨S1100000, .f32⟩
  | 43 => ⟨S1100000, .f32⟩
  | 44 => ⟨S_, .i32⟩
  | 45 => ⟨S1100000, .i32⟩
  | 46 => ⟨S1100000, .i1⟩
  | 47 => ⟨S_, .i32⟩
  | 48 => ⟨S1100000, .i32⟩
  | 49 => ⟨S1100000, .i32⟩
  | 50 => ⟨S1100000, .i32⟩
  | 51 => ⟨S1100000x1, .i32⟩
  | 52 => ⟨S1100000, .f32⟩
  | 53 => ⟨S1100000, .f32⟩
  | 54 => ⟨S64x64, .f32⟩
  | 55 => ⟨S100000x64, .f32⟩
  | 56 => ⟨S_, .i32⟩
  | 57 => ⟨S1100000, .i32⟩
  | 58 => ⟨S1100000, .i1⟩
  | 59 => ⟨S_, .i32⟩
  | 60 => ⟨S1100000, .i32⟩
  | 61 => ⟨S1100000, .i32⟩
  | 62 => ⟨S1100000, .i32⟩
  | 63 => ⟨S1100000x1, .i32⟩
  | 64 => ⟨S1100000x64, .f32⟩
  | 65 => ⟨S1100000x1, .f32⟩
  | 66 => ⟨S1100000x64, .f32⟩
  | 67 => ⟨S1100000x64, .f32⟩
  | 68 => ⟨S_, .f32⟩
  | 69 => ⟨S100000x64, .f32⟩
  | 70 => ⟨S1100000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S64x64, .f32⟩
  | 79 => ⟨S100000x64, .f32⟩
  | 80 => ⟨S_, .i32⟩
  | 81 => ⟨S1100000, .i32⟩
  | 82 => ⟨S1100000, .i1⟩
  | 83 => ⟨S_, .i32⟩
  | 84 => ⟨S1100000, .i32⟩
  | 85 => ⟨S1100000, .i32⟩
  | 86 => ⟨S1100000, .i32⟩
  | 87 => ⟨S1100000x1, .i32⟩
  | 88 => ⟨S1100000x64, .f32⟩
  | 89 => ⟨S1100000x1, .f32⟩
  | 90 => ⟨S1100000x64, .f32⟩
  | 91 => ⟨S1100000x64, .f32⟩
  | 92 => ⟨S_, .f32⟩
  | 93 => ⟨S100000x64, .f32⟩
  | 94 => ⟨S1100000x1, .i32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S64x64, .f32⟩
  | 103 => ⟨S100000x64, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000x64, .f32⟩
  | 113 => ⟨S1100000x1, .f32⟩
  | 114 => ⟨S1100000x64, .f32⟩
  | 115 => ⟨S1100000x64, .f32⟩
  | 116 => ⟨S_, .f32⟩
  | 117 => ⟨S100000x64, .f32⟩
  | 118 => ⟨S1100000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S128x64, .f32⟩
  | 125 => ⟨S100000x1, .i32⟩
  | 126 => ⟨S128x64, .f32⟩
  | 127 => ⟨S64x10, .f32⟩
  | _ => ⟨S100000x64, .f32⟩

abbrev hbmTy0_1 (i : Nat) : BufTy := match i % 128 with
  | 0 => ⟨S128x10, .f32⟩
  | 1 => ⟨S1x10, .f32⟩
  | 2 => ⟨S128x10, .f32⟩
  | 3 => ⟨S128x10, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x10, .f32⟩
  | 11 => ⟨S128x10, .f32⟩
  | 12 => ⟨S128x10, .f32⟩
  | 13 => ⟨S_, .f32⟩
  | 14 => ⟨S128, .f32⟩
  | 15 => ⟨S128x1, .f32⟩
  | 16 => ⟨S128x1, .f32⟩
  | 17 => ⟨S128x10, .f32⟩
  | 18 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_cst : Ref sig .tc := ⟨.hbm, 99, rfl⟩
abbrev main_call2_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_12 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call3_cst : Ref sig .tc := ⟨.hbm, 132, rfl⟩
abbrev main_call3_v0 : Ref sig .tc := ⟨.hbm, 133, rfl⟩
abbrev main_call3_cst_0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_v6 : Ref sig .tc := ⟨.hbm, 140, rfl⟩
abbrev main_call3_cst_1 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_v96 : Ref sig .tc := ⟨.hbm, 146, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  transposes_S64x64_S64x64_1_0 : S64x64.Transposes [1, 0] S64x64
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  transposes_S10x64_S64x10_1_0 : S10x64.Transposes [1, 0] S64x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KernelRun.lean ====
/-
  The idealized kernel's run with its two results named.

  The program is fourteen segments: stretches of host operations and seven kernel launches. Each segment takes every
  buffer of the core from the contents at one boundary to the contents at the next, so at the return every buffer
  holds the last boundary's contents. The generated frame keeps of this only that the arguments are unchanged; here
  the same run is read at ANY property of the final memory that follows from the last boundary's contents, and then
  at the two result buffers: the pooled features and the classifier's output are what the last boundary holds there.
-/
import proofs.«168690_j50672024158926_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and its final memory has every property `Q` that holds of
    a memory whose unscoped buffers are at the last boundary's contents. -/
theorem run_at {Q : PUnit × MemSt nD τ sig (Elt F) → Prop}
    (hQ : ∀ s : MemSt nD τ sig (Elt F),
      (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := hQ)

/-- The run, read at the results and the arguments: the pooled features `main_v82` and the classifier's output
    `main_v84` end at the last boundary's contents, the twelve arguments as launched. -/
theorem run_named : θ_run defs (onTc (τ := τ) (main (F := F))) ⟨m, fun _ => 0, ρ⟩ (fun r => ∀ c : Dev nD,
      r.2.mem ((c.tc : Thread nD τ).loc main_v82) = W14 m ρ c (Proc.devRef .tc main_v82)
      ∧ r.2.mem ((c.tc : Thread nD τ).loc main_v84) = W14 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_at m ρ fun s h c =>
    ⟨h c _ (mem_uc main_v82 (by decide)),
     h c _ (mem_uc main_v84 (by decide)),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c)⟩

end Cert.KernelIdeal.Named

end
-- ==== Proof.ChainEntry.lean ====
/-
  What region 0 finds: the edge arrays with the self loops appended, and the symmetric normalisation.

  Before the first launch the program runs only host operations on its arguments: the source and target index
  arrays with one self loop per node appended, the edge weights with ones appended, the weighted in-degree by a
  scatter-add, its inverse square root where positive, and the per-edge product of the two ends' factors with the
  weight. The kernel's program and the reference's spell these operations identically, so each buffer holds the
  reference's stage of the same arguments. The three stretches of host operations are read one after the other.
-/
import proofs.«168690_j50672024158926_1_alg».proof.Proof.Gen.KernelIdeal.Frame
import proofs.«168690_j50672024158926_1_alg».proof.Proof.Gen.ReferenceIdeal.Read

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

/-- The source-node index of every edge, self loops appended. -/
theorem w1_v3 (c : Dev nD) :
    W1 m ρ c (Proc.devRef .tc main_v3) = val_main_v3 (F := Ideal) (m ((c : Thread nD τ).loc main_arg1)) := by
  show StableHlo.after hostOps0 (W0 m ρ c) (Proc.devRef .tc main_v3) = _
  after_results_simp
  rfl
/-- The target-node index of every edge, self loops appended. -/
theorem w1_v6 (c : Dev nD) :
    W1 m ρ c (Proc.devRef .tc main_v6) = val_main_v6 (F := Ideal) (m ((c : Thread nD τ).loc main_arg1)) := by
  show StableHlo.after hostOps0 (W0 m ρ c) (Proc.devRef .tc main_v6) = _
  after_results_simp
  rfl
/-- The edge weights, a one appended per self loop. -/
theorem w1_v8 (c : Dev nD) :
    W1 m ρ c (Proc.devRef .tc main_v8) = val_main_v8 (F := Ideal) (m ((c : Thread nD τ).loc main_arg3)) := by
  show StableHlo.after hostOps0 (W0 m ρ c) (Proc.devRef .tc main_v8) = _
  after_results_simp
  rfl
/-- Where the weighted in-degree is positive. -/
theorem w1_v13 (c : Dev nD) :
    W1 m ρ c (Proc.devRef .tc main_v13) = val_main_v13 (F := Ideal) (m ((c : Thread nD τ).loc main_arg1)) (m ((c : Thread nD τ).loc main_arg3)) := by
  show StableHlo.after hostOps0 (W0 m ρ c) (Proc.devRef .tc main_v13) = _
  after_results_simp
  rfl
/-- The inverse square root of the weighted in-degree. -/
theorem w1_v14 (c : Dev nD) :
    W1 m ρ c (Proc.devRef .tc main_v14) = val_main_v14 (F := Ideal) (m ((c : Thread nD τ).loc main_arg1)) (m ((c : Thread nD τ).loc main_arg3)) := by
  show StableHlo.after hostOps0 (W0 m ρ c) (Proc.devRef .tc main_v14) = _
  after_results_simp
  rfl
/-- The zero that replaces the factor of a node of degree zero. -/
theorem w1_cst2 (c : Dev nD) :
    W1 m ρ c (Proc.devRef .tc main_cst_2) = val_main_cst_2 (F := Ideal) := by
  show StableHlo.after hostOps0 (W0 m ρ c) (Proc.devRef .tc main_cst_2) = _
  after_results_simp
  rfl

/-! ## After the selection of the factor -/

set_option maxRecDepth 8192 in
/-- The selection, over any contents: the factor where the degree is positive, the broadcast zero elsewhere. -/
theorem where_raw (F : Valuation τ sig (Elt Ideal)) :
    StableHlo.after (hostOps0_1 (F := Ideal)) F (main_v15 : DevRef τ sig)
      = select (F (main_v13 : DevRef τ sig)) (F (main_v14 : DevRef τ sig))
          (broadcastInDim S100000 ![] bcast_S_S100000 (id (F (main_cst_2 : DevRef τ sig)))) := by
  simp only [after_cons, after_nil]
  rfl

/-- Each node's normalisation factor. -/
theorem w2_v15 (c : Dev nD) :
    W2 m ρ c (Proc.devRef .tc main_v15) = val_main_v15 (F := Ideal) (m ((c : Thread nD τ).loc main_arg1)) (m ((c : Thread nD τ).loc main_arg3)) := by
  refine (where_raw (W1 m ρ c)).trans ?_
  rw [w1_v13 m ρ c, w1_v14 m ρ c, w1_cst2 m ρ c]
  rfl

/-- The source indices are carried. -/
theorem w2_v3 (c : Dev nD) :
    W2 m ρ c (Proc.devRef .tc main_v3) = val_main_v3 (F := Ideal) (m ((c : Thread nD τ).loc main_arg1)) := by
  have h := w1_v3 m ρ c
  show StableHlo.after hostOps0_1 (W1 m ρ c) (Proc.devRef .tc main_v3) = _
  generalize W1 m ρ c = F at h ⊢
  after_results_simp
  exact h
/-- The target indices are carried. -/
theorem w2_v6 (c : Dev nD) :
    W2 m ρ c (Proc.devRef .tc main_v6) = val_main_v6 (F := Ideal) (m ((c : Thread nD τ).loc main_arg1)) := by
  have h := w1_v6 m ρ c
  show StableHlo.after hostOps0_1 (W1 m ρ c) (Proc.devRef .tc main_v6) = _
  generalize W1 m ρ c = F at h ⊢
  after_results_simp
  exact h
/-- The weights are carried. -/
theorem w2_v8 (c : Dev nD) :
    W2 m ρ c (Proc.devRef .tc main_v8) = val_main_v8 (F := Ideal) (m ((c : Thread nD τ).loc main_arg3)) := by
  have h := w1_v8 m ρ c
  show StableHlo.after hostOps0_1 (W1 m ρ c) (Proc.devRef .tc main_v8) = _
  generalize W1 m ρ c = F at h ⊢
  after_results_simp
  exact h

/-! ## At the first launch -/

/-- The normalisation factor of every edge: the factor of its source, its weight, the factor of its target. -/
theorem at3_v31 (c : Dev nD) :
    W3 m ρ c (Proc.devRef .tc main_v31) = val_main_v31 (F := Ideal) (m ((c : Thread nD τ).loc main_arg1)) (m ((c : Thread nD τ).loc main_arg3)) := by
  have h15 := w2_v15 m ρ c
  have h3 := w2_v3 m ρ c
  have h6 := w2_v6 m ρ c
  have h8 := w2_v8 m ρ c
  show StableHlo.after hostOps0_2 (W2 m ρ c) (Proc.devRef .tc main_v31) = _
  generalize W2 m ρ c = F at h15 h3 h6 h8 ⊢
  after_results_simp
  rw [h15, h3, h6, h8]
  rfl
/-- The source indices are carried. -/
theorem at3_v3 (c : Dev nD) :
    W3 m ρ c (Proc.devRef .tc main_v3) = val_main_v3 (F := Ideal) (m ((c : Thread nD τ).loc main_arg1)) := by
  have h := w2_v3 m ρ c
  show StableHlo.after hostOps0_2 (W2 m ρ c) (Proc.devRef .tc main_v3) = _
  generalize W2 m ρ c = F at h ⊢
  after_results_simp
  exact h
/-- The target indices are carried. -/
theorem at3_v6 (c : Dev nD) :
    W3 m ρ c (Proc.devRef .tc main_v6) = val_main_v6 (F := Ideal) (m ((c : Thread nD τ).loc main_arg1)) := by
  have h := w2_v6 m ρ c
  show StableHlo.after hostOps0_2 (W2 m ρ c) (Proc.devRef .tc main_v6) = _
  generalize W2 m ρ c = F at h ⊢
  after_results_simp
  exact h

/-! ## The arguments are as launched: no host operation writes one -/

theorem at3_arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem at3_arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem at3_arg4 (c : Dev nD) :
    W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem at3_arg5 (c : Dev nD) :
    W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem at3_arg6 (c : Dev nD) :
    W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem at3_arg7 (c : Dev nD) :
    W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem at3_arg8 (c : Dev nD) :
    W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem at3_arg9 (c : Dev nD) :
    W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl
theorem at3_arg10 (c : Dev nD) :
    W3 m ρ c (Proc.devRef .tc main_arg10) = m ((c : Thread nD τ).loc main_arg10) := by
  show StableHlo.after hostOps0_2 (StableHlo.after hostOps0_1 (StableHlo.after hostOps0 (W0 m ρ c))) (Proc.devRef .tc main_arg10) = _
  after_results_simp <;> rfl
theorem at3_arg11 (c : Dev nD) :
    W3 m ρ c (Proc.devRef .tc main_arg11) = m ((c : Thread nD τ).loc main_arg11) := by
  show StableHlo.after hostOps0_2 (StableHlo.after hostOps0_1 (StableHlo.after hostOps0 (W0 m ρ c))) (Proc.devRef .tc main_arg11) = _
  after_results_simp <;> rfl

end Cert.KernelIdeal.Chain

end
-- ==== Proof.Spec.lean ====
/-
  The four whole-array functions the network is made of, over the extended reals, index by index.

  A graph-convolution layer is a dense transform of every node's features (`linear`: the matrix product with the
  transposed weight matrix), a weighted sum over each node's incoming edges (the host's gather, product and
  scatter-add, which this file does not open), and a bias row added to every node's row, clipped below at zero in the
  first two layers (`addRowRelu`) and not in the third (`addRow`). The classifier is a dense transform of the
  pooled features plus a bias row, then the logarithm of the softmax of every row (`logSoftmaxRows`): each entry
  less its row's maximum, less the logarithm of the row's sum of exponentials of those differences.
-/
import Idealize.ShloMosaic.PureOps.Ideal
import Idealize.ShloMosaic.Lib.ValueIdx

noncomputable section

open scoped BigOperators

namespace Cert.Gcn

open Idealize.ShloMosaic Idealize.ShloMosaic.ValueIdx

/-- The dense transform `x · wᵀ`: entry `(p, q)` is the sum over `k` of `x (p, k) · w (q, k)`. -/
def linear {a n b : ℕ} (x : (⟨2, ![a, n]⟩ : Shape).Idx → EReal) (w : (⟨2, ![b, n]⟩ : Shape).Idx → EReal) :
    (⟨2, ![a, b]⟩ : Shape).Idx → EReal :=
  fun i => ∑ k : Fin n, x (ix2 (i 0) k) * w (ix2 (i 1) k)

theorem linear_apply {a n b : ℕ} (x : (⟨2, ![a, n]⟩ : Shape).Idx → EReal) (w : (⟨2, ![b, n]⟩ : Shape).Idx → EReal)
    (p : Fin a) (q : Fin b) : linear x w (ix2 p q) = ∑ k : Fin n, x (ix2 p k) * w (ix2 q k) := rfl

/-- A row `r` added to every row of `y`. -/
def addRow {a b : ℕ} (y : (⟨2, ![a, b]⟩ : Shape).Idx → EReal) (r : (⟨2, ![1, b]⟩ : Shape).Idx → EReal) :
    (⟨2, ![a, b]⟩ : Shape).Idx → EReal :=
  fun i => y i + r (ix2 (0 : Fin 1) (i 1))

theorem addRow_apply {a b : ℕ} (y : (⟨2, ![a, b]⟩ : Shape).Idx → EReal) (r : (⟨2, ![1, b]⟩ : Shape).Idx → EReal)
    (p : Fin a) (q : Fin b) : addRow y r (ix2 p q) = y (ix2 p q) + r (ix2 (0 : Fin 1) q) := rfl

/-- A row added to every row, then every entry clipped below at `z` (the zero of a rectifier). -/
def addRowClip {a b : ℕ} (z : EReal) (y : (⟨2, ![a, b]⟩ : Shape).Idx → EReal) (r : (⟨2, ![1, b]⟩ : Shape).Idx → EReal) :
    (⟨2, ![a, b]⟩ : Shape).Idx → EReal :=
  fun i => max (y i + r (ix2 (0 : Fin 1) (i 1))) z

theorem addRowClip_apply {a b : ℕ} (z : EReal) (y : (⟨2, ![a, b]⟩ : Shape).Idx → EReal)
    (r : (⟨2, ![1, b]⟩ : Shape).Idx → EReal) (p : Fin a) (q : Fin b) :
    addRowClip z y r (ix2 p q) = max (y (ix2 p q) + r (ix2 (0 : Fin 1) q)) z := rfl

/-- The largest entry of row `p`, the fold of `max` over the row started at `lo` (minus infinity in the program). -/
def rowMax {a b : ℕ} (lo : EReal) (z : (⟨2, ![a, b]⟩ : Shape).Idx → EReal) (p : Fin a) : EReal :=
  (Finset.univ : Finset (Fin b)).fold max lo (fun q => z (ix2 p q))

/-- The logarithm of the softmax of every row: an entry less its row's maximum, less the logarithm of the row's sum of
    the exponentials of those differences. -/
def logSoftmaxRows {a b : ℕ} (lo : EReal) (z : (⟨2, ![a, b]⟩ : Shape).Idx → EReal) :
    (⟨2, ![a, b]⟩ : Shape).Idx → EReal :=
  fun i => (z i - rowMax lo z (i 0)) - Ideal.log (∑ q : Fin b, Ideal.exp (z (ix2 (i 0) q) - rowMax lo z (i 0)))

theorem logSoftmaxRows_apply {a b : ℕ} (lo : EReal) (z : (⟨2, ![a, b]⟩ : Shape).Idx → EReal) (p : Fin a) (q : Fin b) :
    logSoftmaxRows lo z (ix2 p q)
      = (z (ix2 p q) - rowMax lo z p) - Ideal.log (∑ q' : Fin b, Ideal.exp (z (ix2 p q') - rowMax lo z p)) := rfl

end Cert.Gcn

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LinearBlock.lean ====
/-
  The dense transform inside one block of rows.

  A launch of the linear kernel loads a block of 10000 rows of node features and the whole 64 by 64 weight matrix,
  transposes the weights and multiplies: entry (p, q) of what it stores is the sum over k of x (p, k) times w (q, k).
  The narrowing of both operands to a shorter float format before the product is the identity on the extended reals,
  and the product accumulates into zero, so nothing else is left of the body.
-/
import proofs.«168690_j50672024158926_1_alg».proof.Proof.Gen.KernelIdeal.Skeleton
import proofs.«168690_j50672024158926_1_alg».proof.Proof.Spec
import proofs.«168690_j50672024158926_1_alg».proof.Proof.LibMatmulAt
import Idealize.ShloMosaic.Lib.Pipeline.Value

noncomputable section

open scoped BigOperators

namespace Cert.KernelIdeal.Linear

open Cert.KernelIdeal Cert.KernelIdeal.Gen Idealize.ShloMosaic Idealize.ShloMosaic.ValueIdx

/-! The product's dimension numbers contract the left operand's second axis with the right operand's first: where
    each operand's index sits. -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem lhs_contr (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q

theorem rhs_contr (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q

theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product of a block of rows with the transposed weights, read at `(p, q)`. -/
theorem product_apply (x : FVec Ideal S10000x64 .bf16) (w : FVec Ideal S64x64 .bf16) (p : Fin 10000) (q : Fin 64) :
    matmul (F := Ideal) dot_S10000x64_S64x64_S10000x64_1_0_0_1_n_n none x
        (transpose S64x64 [1, 0] w transposes_S64x64_p1_0_S64x64) (constant S10000x64 .f32 0x00000000#32) (ix2 p q)
      = ∑ k : Fin 64, x (ix2 p k) * w (ix2 q k) := by
  refine (MatmulAt.matmul_zero_ix2 dot_S10000x64_S64x64_S10000x64_1_0_0_1_n_n rfl rfl lhs_row lhs_contr rhs_contr rhs_col
    none x _ p q).trans ?_
  refine Finset.sum_congr rfl fun k _ => ?_
  rw [transpose_apply [1, 0] w transposes_S64x64_p1_0_S64x64 (ix2 k q) (ix2 q k) (fun b => match b with
    | ⟨0, _⟩ => rfl
    | ⟨1, _⟩ => rfl)]

/-- What the first layer's linear kernel stores at `(p, q)` of its block. -/
theorem pay0_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 q k) := by
  unfold k0_pay1
  exact product_apply _ _ p q

/-- What the second layer's linear kernel stores at `(p, q)` of its block (its input is first cast to its own shape). -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 q k) := by
  unfold k2_pay1
  rw [shapeCast_self]
  exact product_apply _ _ p q

/-- What the third layer's linear kernel stores at `(p, q)` of its block. -/
theorem pay4_apply (x0 : Vec Ideal S10000x64 .f32) (x1 : Vec Ideal S64x64 .f32) (p : Fin 10000) (q : Fin 64) :
    k4_pay1 (F := Ideal) x0 x1 (ix2 p q) = ∑ k : Fin 64, x0 (ix2 p k) * x1 (ix2 q k) := by
  unfold k4_pay1
  rw [shapeCast_self]
  exact product_apply _ _ p q

end Cert.KernelIdeal.Linear

end
-- ==== Proof.LinearRegion0.lean ====
/-
  Layer 1's dense transform over the whole node array.

  The launch walks ten points; point t loads rows 10000·t … 10000·t + 9999 of the node features and the whole weight
  matrix, and writes rows 10000·t … of the output back. What it writes is those rows of ONE function of the two arrays
  as the launch finds them — the product with the transposed weights — and the ten blocks of rows cover the output, so
  the output array ends holding that function.
-/
import proofs.«168690_j50672024158926_1_alg».proof.Proof.Gen.KernelIdeal.Frame
import proofs.«168690_j50672024158926_1_alg».proof.Proof.LinearBlock

set_option maxRecDepth 16384

noncomputable section

open scoped BigOperators

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem origin0 : (![0, 0] : Fin 2 → Nat) = fun _ => 0 := funext fun a => by fin_cases a <;> rfl

/-- The product with the transposed weights at an entry of the array, from the entries of row `r` of the features and
    row `q` of the weights, the indices given by their coordinates. -/
theorem row_sum0 (A : S100000x64.Idx → EReal) (W : S64x64.Idx → EReal) {r : Fin 100000} {q : Fin 64}
    (f : Fin 64 → S100000x64.Idx) (g : Fin 64 → S64x64.Idx) {i : S100000x64.Idx}
    (ef : ∀ k, f k = ix2 r k) (eg : ∀ k, g k = ix2 q k) (ei : i = ix2 r q) :
    ∑ k : Fin 64, A (f k) * W (g k) = Cert.Gcn.linear A W i := by
  subst ei
  refine Finset.sum_congr rfl fun k _ => ?_
  rw [ef, eg]

/-- The printed index maps over the grid: the feature window and the output window are at block row `t`, the weight
    window always at its one block. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the product of the feature array with the transposed weights. -/
theorem flushed0 (c : Dev nD) (t : Fin cfg0.N) :
    (dat0 (F := Ideal) V c).flushed 2 t
      = ((cfg0.win 2).blk t).view.read (Elt Ideal) (Cert.Gcn.linear (V c main_arg0) (V c main_arg4)) := by
  show (cfg0.win 2).cut (grid0.coords t) ((dat0 V c).after 2 t) = _
  rw [after0_2]
  unfold out0_2
  rw [View.canon_unit_zero origin0]
  simp only [View.ld_unit_zero (S := S10000x64) origin0, View.ld_unit_zero (S := S64x64) origin0]
  obtain ⟨e0, e1, e2, e3, e4, e5⟩ := blocks0 t
  have ht : t.val < 10 := (show t.val < grid0.N from t.isLt).trans_eq N_0
  funext j
  obtain ⟨p, q, rfl⟩ : ∃ (p : Fin 10000) (q : Fin 64), j = ix2 p q := ⟨j 0, j 1, eq_ix2 j⟩
  have hp : p.val < 10000 := p.isLt
  have hq : q.val < 64 := q.isLt
  have h0 : ∀ k : Fin 64, ((cfg0.win 0).blk t).view.emb (ix2 p k)
      = ix2 (⟨t.val * 10000 + p.val, by omega⟩ : Fin 100000) k := fun k => by
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : ∀ k : Fin 64, ((cfg0.win 1).blk t).view.emb (ix2 q k) = ix2 q k := fun k => by
    funext a; apply Fin.ext
    match a with
    | ⟨0, _⟩ => show win0_1.index t (0 : Fin 2) * 64 + 1 * q.val = q.val; omega
    | ⟨1, _⟩ => show win0_1.index t (1 : Fin 2) * 64 + 1 * k.val = k.val; omega
  have h2 : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (pay0_apply (iblk0 V c 0 t) (iblk0 V c 1 t) p q).trans ?_
  exact row_sum0 (V c main_arg0) (V c main_arg4) (fun k => ((cfg0.win 0).blk t).view.emb (ix2 p k))
    (fun k => ((cfg0.win 1).blk t).view.emb (ix2 q k)) h0 h1 h2

/-- An index of the output is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Row `r` of the output is in the block of point `r / 10000`, which writes back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show (i 0).val / 10000 < grid0.N; omega⟩
  obtain ⟨-, -, -, -, e4, e5⟩ := blocks0 t
  have tv : t.val = (i 0).val / 10000 := rfl
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the launch the output array is the product of the feature array, as the launch found it, with the transposed
    weight matrix. -/
theorem final0 (c : Dev nD) :
    (dat0 (F := Ideal) V c).arrAt 2 cfg0.N = Cert.Gcn.linear (V c main_arg0) (V c main_arg4) :=
  (dat0 (F := Ideal) V c).arrAt_eq_of_cover 2 _ (fun t _ => flushed0 V c t) (cover0)

end

end Cert.KernelIdeal.Linear

end
-- ==== Proof.BiasRegion1.lean ====
/-
  Region 1 of the kernel adds a bias row to every row of a [100000, 64] array and clips the sum below at zero.
  The grid has ten points; point t stages rows 10000·t … 10000·t + 9999 of the array as one [10000, 64] block,
  the [1, 64] bias row as the same one block at every point, and writes back the block of sums at the same rows.
  Entry (p, q) of the block written at point t is the array's entry (10000·t + p, q) plus the row's entry (0, q),
  or zero if that is larger; row r of the array lies in the block of point r / 10000, so the ten blocks fill the
  array and it ends holding the whole-array function of the specification.
-/
import proofs.«168690_j50672024158926_1_alg».proof.Proof.Gen.KernelIdeal.Frame
import proofs.«168690_j50672024158926_1_alg».proof.Proof.Spec
import Idealize.ShloMosaic.Lib.Pipeline.Value
import Idealize.ShloMosaic.Lib.ValueLayout

noncomputable section

namespace Cert.KernelIdeal.Bias

open Cert.KernelIdeal Idealize.ShloMosaic Idealize.ShloMosaic.TcCoe Idealize.SL.Sem
open Idealize.ShloMosaic.ValueIdx
open Idealize.ShloMosaic.Pipeline (Dat)

/-- The two zero offsets of a whole-block access, as the constant function. -/
theorem zero_offsets1 : (![0, 0] : Fin 2 → Nat) = fun _ => 0 := funext fun a => by fin_cases a <;> rfl

/-- The body's result at entry (p, q) of a block: the block's entry plus the row's entry in column q, clipped below at zero. -/
theorem pay1_apply (x0 : Vec Ideal S10000x64 .f32) (x1 : Vec Ideal S1x64 .f32) (p : Fin 10000) (q : Fin 64) :
    Gen.k1_pay1 (F := Ideal) x0 x1 (ix2 p q)
      = max (x0 (ix2 p q) + x1 (ix2 (0 : Fin 1) q)) (Ideal.ofBits .f32 0x00000000#32) := by
  have e0 : shapeCast S10000x64 x0 Gen.shapeCasts_S10000x64_S10000x64 = x0 := shapeCast_self x0 _
  have e1 : shapeCast S1x64 x1 Gen.shapeCasts_S1x64_S1x64 = x1 := shapeCast_self x1 _
  have e2 : broadcastTo S10000x64 x1 Gen.broadcasts_S1x64_S10000x64 (ix2 p q) = x1 (ix2 (0 : Fin 1) q) :=
    broadcastTo_1b_ab_apply x1 _ p q
  unfold Gen.k1_pay1
  show max (shapeCast S10000x64 x0 _ (ix2 p q) + broadcastTo S10000x64 (shapeCast S1x64 x1 _) _ (ix2 p q)) (Ideal.ofBits .f32 0x00000000#32) = _
  rw [e0, e1, e2]

/-- The specification's function at an entry of the array, from the array's entry there and the row's entry in the same
    column, the three indices given by their coordinates. -/
theorem sum_at1 (A : S100000x64.Idx → EReal) (R : S1x64.Idx → EReal) {i0 i2 : S100000x64.Idx} {i1 : S1x64.Idx}
    {r : Fin 100000} {q : Fin 64} (e0 : i0 = ix2 r q) (e1 : i1 = ix2 (0 : Fin 1) q) (e2 : i2 = ix2 r q) :
    max (A i0 + R i1) (Ideal.ofBits .f32 0x00000000#32) = Cert.Gcn.addRowClip (Ideal.ofBits .f32 0x00000000#32) A R i2 := by
  subst e0 e1 e2; rfl

/-- The windows' block indices at point t: the array windows are at block row t, the bias row always at block 0. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point t writes back is block t of the specification's function of the two arrays as the region finds them. -/
theorem flushed1_eq (c : Dev nD) (t : Fin cfg1.N) :
    (Gen.dat1 (F := Ideal) V c).flushed 2 t
      = ((cfg1.win 2).blk t).view.read (Elt Ideal)
          (Cert.Gcn.addRowClip (Ideal.ofBits .f32 0x00000000#32) (V c main_v45) (V c main_v46)) := by
  show (cfg1.win 2).cut (grid1.coords t) ((Gen.dat1 V c).after 2 t) = _
  rw [Gen.after1_2]
  unfold Gen.out1_2
  rw [View.canon_unit_zero zero_offsets1]
  simp only [View.ld_unit_zero (S := S10000x64) zero_offsets1, View.ld_unit_zero (S := S1x64) zero_offsets1]
  obtain ⟨i00, i01, i10, i11, i20, i21⟩ := block_index1 t
  have ht : t.val < 10 := (show t.val < grid1.N from t.isLt).trans_eq Gen.N_1
  funext j
  obtain ⟨p, q, rfl⟩ : ∃ (p : Fin 10000) (q : Fin 64), j = ix2 p q := ⟨j 0, j 1, eq_ix2 j⟩
  have hp : p.val < 10000 := p.isLt
  have hq : q.val < 64 := q.isLt
  have e0 : ((cfg1.win 0).blk t).view.emb (ix2 p q) = ix2 (⟨t.val * 10000 + p.val, by omega⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have e1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  have e2 : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  refine (pay1_apply (Gen.iblk1 V c 0 t) (Gen.iblk1 V c 1 t) p q).trans ?_
  exact sum_at1 (V c main_v45) (V c main_v46) e0 e1 e2

/-- An index of the array is in point t's block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v47).slice (win1_2.rect t)).set ↔ _
  rw [View.set_slice_whole, Rect.mem_set_unit]
  exact Iff.rfl

/-- Row r of the array is in the block of point r / 10000, which is written back. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := Gen.N_1
  let t : Fin cfg1.N := ⟨(i 0).val / 10000, by show (i 0).val / 10000 < grid1.N; omega⟩
  obtain ⟨-, -, -, -, i20, i21⟩ := block_index1 t
  have tv : t.val = (i 0).val / 10000 := rfl
  refine ⟨t, Gen.flush1_2 t, ?_⟩
  rw [mem_block1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array region 1 leaves: the bias row added to every row of the array it was given, clipped below at zero. -/
theorem final1 (c : Dev nD) :
    (Gen.dat1 (F := Ideal) V c).arrAt 2 cfg1.N
      = Cert.Gcn.addRowClip (Ideal.ofBits .f32 0x00000000#32) (V c main_v45) (V c main_v46) :=
  (Gen.dat1 (F := Ideal) V c).arrAt_eq_of_cover 2 _ (fun t _ => flushed1_eq V c t) (cover1)

end

end Cert.KernelIdeal.Bias

end
-- ==== Proof.LinearRegion2.lean ====
/-
  Layer 2's dense transform over the whole node array.

  The launch walks ten points; point t loads rows 10000·t … 10000·t + 9999 of the node features and the whole weight
  matrix, and writes rows 10000·t … of the output back. What it writes is those rows of ONE function of the two arrays
  as the launch finds them — the product with the transposed weights — and the ten blocks of rows cover the output, so
  the output array ends holding that function.
-/
import proofs.«168690_j50672024158926_1_alg».proof.Proof.Gen.KernelIdeal.Frame
import proofs.«168690_j50672024158926_1_alg».proof.Proof.LinearBlock

set_option maxRecDepth 16384

noncomputable section

open scoped BigOperators

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem origin2 : (![0, 0] : Fin 2 → Nat) = fun _ => 0 := funext fun a => by fin_cases a <;> rfl

/-- The product with the transposed weights at an entry of the array, from the entries of row `r` of the features and
    row `q` of the weights, the indices given by their coordinates. -/
theorem row_sum2 (A : S100000x64.Idx → EReal) (W : S64x64.Idx → EReal) {r : Fin 100000} {q : Fin 64}
    (f : Fin 64 → S100000x64.Idx) (g : Fin 64 → S64x64.Idx) {i : S100000x64.Idx}
    (ef : ∀ k, f k = ix2 r k) (eg : ∀ k, g k = ix2 q k) (ei : i = ix2 r q) :
    ∑ k : Fin 64, A (f k) * W (g k) = Cert.Gcn.linear A W i := by
  subst ei
  refine Finset.sum_congr rfl fun k _ => ?_
  rw [ef, eg]

/-- The printed index maps over the grid: the feature window and the output window are at block row `t`, the weight
    window always at its one block. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b))

/-- What point `t` writes back is block `t` of the product of the feature array with the transposed weights. -/
theorem flushed2 (c : Dev nD) (t : Fin cfg2.N) :
    (dat2 (F := Ideal) V c).flushed 2 t
      = ((cfg2.win 2).blk t).view.read (Elt Ideal) (Cert.Gcn.linear (V c main_v47) (V c main_arg6)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  obtain ⟨e0, e1, e2, e3, e4, e5⟩ := blocks2 t
  have ht : t.val < 10 := (show t.val < grid2.N from t.isLt).trans_eq N_2
  funext j
  obtain ⟨p, q, rfl⟩ : ∃ (p : Fin 10000) (q : Fin 64), j = ix2 p q := ⟨j 0, j 1, eq_ix2 j⟩
  have hp : p.val < 10000 := p.isLt
  have hq : q.val < 64 := q.isLt
  have h0 : ∀ k : Fin 64, ((cfg2.win 0).blk t).view.emb (ix2 p k)
      = ix2 (⟨t.val * 10000 + p.val, by omega⟩ : Fin 100000) k := fun k => by
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : ∀ k : Fin 64, ((cfg2.win 1).blk t).view.emb (ix2 q k) = ix2 q k := fun k => by
    funext a; apply Fin.ext
    match a with
    | ⟨0, _⟩ => show win2_1.index t (0 : Fin 2) * 64 + 1 * q.val = q.val; omega
    | ⟨1, _⟩ => show win2_1.index t (1 : Fin 2) * 64 + 1 * k.val = k.val; omega
  have h2 : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  refine (pay2_apply (iblk2 V c 0 t) (iblk2 V c 1 t) p q).trans ?_
  exact row_sum2 (V c main_v47) (V c main_arg6) (fun k => ((cfg2.win 0).blk t).view.emb (ix2 p k))
    (fun k => ((cfg2.win 1).blk t).view.emb (ix2 q k)) h0 h1 h2

/-- An index of the output is in point `t`'s block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v48).slice (win2_2.rect t)).set ↔ _
  rw [View.set_slice_whole, Rect.mem_set_unit]
  exact Iff.rfl

/-- Row `r` of the output is in the block of point `r / 10000`, which writes back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  let t : Fin cfg2.N := ⟨(i 0).val / 10000, by show (i 0).val / 10000 < grid2.N; omega⟩
  obtain ⟨-, -, -, -, e4, e5⟩ := blocks2 t
  have tv : t.val = (i 0).val / 10000 := rfl
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- After the launch the output array is the product of the feature array, as the launch found it, with the transposed
    weight matrix. -/
theorem final2 (c : Dev nD) :
    (dat2 (F := Ideal) V c).arrAt 2 cfg2.N = Cert.Gcn.linear (V c main_v47) (V c main_arg6) :=
  (dat2 (F := Ideal) V c).arrAt_eq_of_cover 2 _ (fun t _ => flushed2 V c t) (cover2)

end

end Cert.KernelIdeal.Linear

end
-- ==== Proof.RefLinear.lean ====
/-
  The reference's three dense transforms.

  The reference transposes the weight matrix on the host and contracts the features' second axis with the transposed
  matrix's first: entry (p, q) is the sum over k of x (p, k) times w (q, k), the same function of the two arrays as the
  kernel's.
-/
import proofs.«168690_j50672024158926_1_alg».proof.Proof.Gen.ReferenceIdeal.Read
import proofs.«168690_j50672024158926_1_alg».proof.Proof.Spec
import proofs.«168690_j50672024158926_1_alg».proof.Proof.LibMatmulAt

noncomputable section

open scoped BigOperators

namespace Cert.ReferenceIdeal.Linear

open Cert.ReferenceIdeal Cert.ReferenceIdeal.Gen Cert.ReferenceIdeal.Read Idealize.ShloMosaic Idealize.ShloMosaic.ValueIdx

/-- The product of a feature array with a host-transposed weight matrix is `linear` of the two. -/
theorem dot_transpose (l : FVec Ideal S100000x64 .f32) (w : FVec Ideal S64x64 .f32) :
    Host.dotGeneral (F := Ideal) dot_S100000x64_S64x64_S100000x64_1_0_0_1_n_n none l
        (transpose S64x64 [1, 0] w transposes_S64x64_S64x64_1_0)
      = Cert.Gcn.linear l w := by
  funext i
  obtain ⟨p, q, rfl⟩ : ∃ (p : Fin 100000) (q : Fin 64), i = ix2 p q := ⟨i 0, i 1, eq_ix2 i⟩
  refine (MatmulAt.dotGeneral_ix2 dot_S100000x64_S64x64_S100000x64_1_0_0_1_n_n rfl rfl lhs_main_v33_0 lhs_main_v33_1
    rhs_main_v33_0 rhs_main_v33_1 none l _ p q).trans ?_
  refine Finset.sum_congr rfl fun k _ => ?_
  rw [transpose_apply [1, 0] w transposes_S64x64_S64x64_1_0 (ix2 k q) (ix2 q k) (fun b => match b with
    | ⟨0, _⟩ => rfl
    | ⟨1, _⟩ => rfl)]

/-- The first layer's transform of the input features. -/
theorem ref_v33 (x0 : (⟨S100000x64, .f32⟩ : BufTy).Contents (Elt Ideal)) (x4 : (⟨S64x64, .f32⟩ : BufTy).Contents (Elt Ideal)) : val_main_v33 (F := Ideal) x0 x4 = Cert.Gcn.linear x0 x4 := by
  unfold val_main_v33 val_main_v32
  exact dot_transpose x0 x4

/-- The second layer's transform of the first layer's output. -/
theorem ref_v52 (x0 : (⟨S100000x64, .f32⟩ : BufTy).Contents (Elt Ideal)) (x1 : (⟨S2x1000000, .i32⟩ : BufTy).Contents (Elt Ideal)) (x3 : (⟨S1000000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    val_main_v52 (F := Ideal) x0 x1 x3 x4 x5 x6 = Cert.Gcn.linear (val_main_v50 (F := Ideal) x0 x1 x3 x4 x5) x6 := by
  unfold val_main_v52 val_main_v51
  exact dot_transpose _ x6

/-- The third layer's transform of the second layer's output. -/
theorem ref_v71 (x0 : (⟨S100000x64, .f32⟩ : BufTy).Contents (Elt Ideal)) (x1 : (⟨S2x1000000, .i32⟩ : BufTy).Contents (Elt Ideal)) (x3 : (⟨S1000000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v71 (F := Ideal) x0 x1 x3 x4 x5 x6 x7 x8 = Cert.Gcn.linear (val_main_v69 (F := Ideal) x0 x1 x3 x4 x5 x6 x7) x8 := by
  unfold val_main_v71 val_main_v70
  exact dot_transpose _ x8

end Cert.ReferenceIdeal.Linear

end
-- ==== Proof.RefBias.lean ====
/-
  The reference's three bias stages. Each lays the bias vector out as a [1, 64] row, repeats that row over the
  100000 rows of the features, and adds; the first two then take the maximum with a zero array. Read at entry
  (p, q) the repeated row is the row's entry (0, q), so each stage is the specification's row addition (clipped
  below at zero in the first two) of the stage before it and the bias row.
-/
import proofs.«168690_j50672024158926_1_alg».proof.Proof.Gen.ReferenceIdeal.Read
import proofs.«168690_j50672024158926_1_alg».proof.Proof.Spec

noncomputable section

namespace Cert.ReferenceIdeal.Bias

open Cert.ReferenceIdeal Cert.ReferenceIdeal.Gen Cert.ReferenceIdeal.Read
open Idealize.ShloMosaic Idealize.ShloMosaic.ValueIdx

/-- Stage %50 of the reference: the bias vector, laid out as one row, added to every row of stage %46, clipped below at zero. -/
theorem ref_v50 (x0 : (⟨S100000x64, .f32⟩ : BufTy).Contents (Elt Ideal))
    (x1 : (⟨S2x1000000, .i32⟩ : BufTy).Contents (Elt Ideal))
    (x3 : (⟨S1000000, .f32⟩ : BufTy).Contents (Elt Ideal))
    (x4 : (⟨S64x64, .f32⟩ : BufTy).Contents (Elt Ideal))
    (x5 : (⟨S64, .f32⟩ : BufTy).Contents (Elt Ideal)) :
    val_main_v50 (F := Ideal) x0 x1 x3 x4 x5
      = Cert.Gcn.addRowClip (Ideal.ofBits .f32 0x00000000#32) (val_main_v46 (F := Ideal) x0 x1 x3 x4)
          (broadcastInDim S1x64 ![1] bcast_S64_S1x64_1 x5) := by
  funext i
  obtain ⟨p, q, rfl⟩ : ∃ (p : Fin 100000) (q : Fin 64), i = ix2 p q := ⟨i 0, i 1, eq_ix2 i⟩
  have e : idx_main_v48 (ix2 p q) = ix2 (0 : Fin 1) q :=
    funext fun a => Fin.ext (by match a with | ⟨0, _⟩ => rfl | ⟨1, _⟩ => rfl)
  rw [val_main_v50_apply, val_main_v49_apply, val_main_v48_apply, val_main_call1_v0_apply, val_main_call1_cst_apply, Cert.Gcn.addRowClip_apply, e]
  rfl

/-- Stage %69 of the reference: the bias vector, laid out as one row, added to every row of stage %65, clipped below at zero. -/
theorem ref_v69 (x0 : (⟨S100000x64, .f32⟩ : BufTy).Contents (Elt Ideal))
    (x1 : (⟨S2x1000000, .i32⟩ : BufTy).Contents (Elt Ideal))
    (x3 : (⟨S1000000, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S64, .f32⟩ : BufTy).Contents (Elt Ideal)) :
    val_main_v69 (F := Ideal) x0 x1 x3 x4 x5 x6 x7
      = Cert.Gcn.addRowClip (Ideal.ofBits .f32 0x00000000#32) (val_main_v65 (F := Ideal) x0 x1 x3 x4 x5 x6)
          (broadcastInDim S1x64 ![1] bcast_S64_S1x64_1 x7) := by
  funext i
  obtain ⟨p, q, rfl⟩ : ∃ (p : Fin 100000) (q : Fin 64), i = ix2 p q := ⟨i 0, i 1, eq_ix2 i⟩
  have e : idx_main_v67 (ix2 p q) = ix2 (0 : Fin 1) q :=
    funext fun a => Fin.ext (by match a with | ⟨0, _⟩ => rfl | ⟨1, _⟩ => rfl)
  rw [val_main_v69_apply, val_main_v68_apply, val_main_v67_apply, val_main_call2_v0_apply, val_main_call2_cst_apply, Cert.Gcn.addRowClip_apply, e]
  rfl

/-- Stage %87 of the reference: the bias vector, laid out as one row, added to every row of stage %84. -/
theorem ref_v87 (x0 : (⟨S100000x64, .f32⟩ : BufTy).Contents (Elt Ideal))
    (x1 : (⟨S2x1000000, .i32⟩ : BufTy).Contents (Elt Ideal))
    (x3 : (⟨S1000000, .f32⟩ : BufTy).Contents (Elt Ideal))
    (x4 : (⟨S64x64, .f32⟩ : BufTy).Contents (Elt Ideal))
    (x5 : (⟨S64, .f32⟩ : BufTy).Contents (Elt Ideal))
    (x6 : (⟨S64x64, .f32⟩ : BufTy).Contents (Elt Ideal))
    (x7 : (⟨S64, .f32⟩ : BufTy).Contents (Elt Ideal))
    (x8 : (⟨S64x64, .f32⟩ : BufTy).Contents (Elt Ideal))
    (x9 : (⟨S64, .f32⟩ : BufTy).Contents (Elt Ideal)) :
    val_main_v87 (F := Ideal) x0 x1 x3 x4 x5 x6 x7 x8 x9
      = Cert.Gcn.addRow (val_main_v84 (F := Ideal) x0 x1 x3 x4 x5 x6 x7 x8)
          (broadcastInDim S1x64 ![1] bcast_S64_S1x64_1 x9) := by
  funext i
  obtain ⟨p, q, rfl⟩ : ∃ (p : Fin 100000) (q : Fin 64), i = ix2 p q := ⟨i 0, i 1, eq_ix2 i⟩
  have e : idx_main_v86 (ix2 p q) = ix2 (0 : Fin 1) q :=
    funext fun a => Fin.ext (by match a with | ⟨0, _⟩ => rfl | ⟨1, _⟩ => rfl)
  rw [val_main_v87_apply, val_main_v86_apply, Cert.Gcn.addRow_apply, e]
  rfl

end Cert.ReferenceIdeal.Bias

end
-- ==== Proof.LibRowOfVector.lean ====
/-
  A vector laid down as a one-row matrix, two ways.

  A `[b]` vector reshaped to `[1, b]` and the same vector broadcast into `[1, b]` along the second axis are one array:
  entry `(0, q)` of either is entry `q` of the vector.
-/
import Idealize.ShloMosaic.Lib.Pipeline.Value
import Idealize.ShloMosaic.Lib.ValueLayout
import Idealize.ShloMosaic.Lib.ValueIdx

namespace Cert.LibRowOfVector

open Idealize.ShloMosaic Idealize.ShloMosaic.ValueIdx

/-- For `b ≠ 1`, the reshape of a `[b]` vector to `[1, b]` is its broadcast into `[1, b]` along axis 1. -/
theorem shapeCast_eq_broadcastInDim {b : ℕ} {α : Type} (hb : b ≠ 1) (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply v h u q]
  refine (broadcastInDim_apply ![1] h' v (ix2 u q) (ix1 q) fun a => ?_).symm
  match a with
  | ⟨0, _⟩ =>
    show q.val = if b = 1 then 0 else q.val
    rw [if_neg hb]

end Cert.LibRowOfVector
-- ==== Proof.ChainLayer1.lean ====
/-
  The first layer, and the second layer's dense transform.

  Region 0 leaves the dense transform of the input features; the host gathers its rows by each edge's source, scales
  them by the edge's normalisation factor and adds them into each edge's target row; region 1 adds the bias row and
  clips below at zero; region 2 transforms the result by the second weight matrix. At every boundary the buffer that
  carries the node features holds the reference's stage of the same arguments, and the edge arrays, the
  normalisation factors and the arguments not yet used are carried unchanged.
-/
import proofs.«168690_j50672024158926_1_alg».proof.Proof.ChainEntry
import proofs.«168690_j50672024158926_1_alg».proof.Proof.LinearRegion0
import proofs.«168690_j50672024158926_1_alg».proof.Proof.BiasRegion1
import proofs.«168690_j50672024158926_1_alg».proof.Proof.LinearRegion2
import proofs.«168690_j50672024158926_1_alg».proof.Proof.RefLinear
import proofs.«168690_j50672024158926_1_alg».proof.Proof.RefBias
import proofs.«168690_j50672024158926_1_alg».proof.Proof.LibRowOfVector

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After region 0 -/

theorem at4_v3 (c : Dev nD) :
    W4 m ρ c (Proc.devRef .tc main_v3) = val_main_v3 (F := Ideal) (m ((c : Thread nD τ).loc main_arg1)) :=
  (W4_of_ne m ρ c main_v3 (by decide)).trans (at3_v3 m ρ c)
theorem at4_v6 (c : Dev nD) :
    W4 m ρ c (Proc.devRef .tc main_v6) = val_main_v6 (F := Ideal) (m ((c : Thread nD τ).loc main_arg1)) :=
  (W4_of_ne m ρ c main_v6 (by decide)).trans (at3_v6 m ρ c)
theorem at4_v31 (c : Dev nD) :
    W4 m ρ c (Proc.devRef .tc main_v31) = val_main_v31 (F := Ideal) (m ((c : Thread nD τ).loc main_arg1)) (m ((c : Thread nD τ).loc main_arg3)) :=
  (W4_of_ne m ρ c main_v31 (by decide)).trans (at3_v31 m ρ c)
theorem at4_arg5 (c : Dev nD) :
    W4 m ρ c (Proc.devRef .tc main_arg5) = m ((c : Thread nD τ).loc main_arg5) :=
  (W4_of_ne m ρ c main_arg5 (by decide)).trans (at3_arg5 m ρ c)
theorem at4_arg6 (c : Dev nD) :
    W4 m ρ c (Proc.devRef .tc main_arg6) = m ((c : Thread nD τ).loc main_arg6) :=
  (W4_of_ne m ρ c main_arg6 (by decide)).trans (at3_arg6 m ρ c)
theorem at4_arg7 (c : Dev nD) :
    W4 m ρ c (Proc.devRef .tc main_arg7) = m ((c : Thread nD τ).loc main_arg7) :=
  (W4_of_ne m ρ c main_arg7 (by decide)).trans (at3_arg7 m ρ c)
theorem at4_arg8 (c : Dev nD) :
    W4 m ρ c (Proc.devRef .tc main_arg8) = m ((c : Thread nD τ).loc main_arg8) :=
  (W4_of_ne m ρ c main_arg8 (by decide)).trans (at3_arg8 m ρ c)
theorem at4_arg9 (c : Dev nD) :
    W4 m ρ c (Proc.devRef .tc main_arg9) = m ((c : Thread nD τ).loc main_arg9) :=
  (W4_of_ne m ρ c main_arg9 (by decide)).trans (at3_arg9 m ρ c)
theorem at4_arg2 (c : Dev nD) :
    W4 m ρ c (Proc.devRef .tc main_arg2) = m ((c : Thread nD τ).loc main_arg2) :=
  (W4_of_ne m ρ c main_arg2 (by decide)).trans (at3_arg2 m ρ c)
theorem at4_arg10 (c : Dev nD) :
    W4 m ρ c (Proc.devRef .tc main_arg10) = m ((c : Thread nD τ).loc main_arg10) :=
  (W4_of_ne m ρ c main_arg10 (by decide)).trans (at3_arg10 m ρ c)
theorem at4_arg11 (c : Dev nD) :
    W4 m ρ c (Proc.devRef .tc main_arg11) = m ((c : Thread nD τ).loc main_arg11) :=
  (W4_of_ne m ρ c main_arg11 (by decide)).trans (at3_arg11 m ρ c)
/-- The first layer's dense transform of the input features. -/
theorem at4_v32 (c : Dev nD) :
    W4 m ρ c (Proc.devRef .tc main_v32) = val_main_v33 (F := Ideal) (m ((c : Thread nD τ).loc main_arg0)) (m ((c : Thread nD τ).loc main_arg4)) := by
  refine (W4_arr m ρ c 2).trans ((Cert.KernelIdeal.Linear.final0 (V3 m ρ) c).trans ?_)
  rw [Cert.ReferenceIdeal.Linear.ref_v33]
  exact congrArg₂ (Cert.Gcn.linear (a := 100000) (n := 64) (b := 64)) (at3_arg0 m ρ c) (at3_arg4 m ρ c)

/-! ## After the first aggregation -/

/-- Carried: no operation of the stretch writes it. -/
theorem at5_v3 (c : Dev nD) :
    W5 m ρ c (Proc.devRef .tc main_v3) = val_main_v3 (F := Ideal) (m ((c : Thread nD τ).loc main_arg1)) := by
  have h := at4_v3 m ρ c
  show StableHlo.after hostOps1 (W4 m ρ c) (Proc.devRef .tc main_v3) = _
  generalize W4 m ρ c = F at h ⊢
  after_results_simp
  exact h
/-- Carried: no operation of the stretch writes it. -/
theorem at5_v6 (c : Dev nD) :
    W5 m ρ c (Proc.devRef .tc main_v6) = val_main_v6 (F := Ideal) (m ((c : Thread nD τ).loc main_arg1)) := by
  have h := at4_v6 m ρ c
  show StableHlo.after hostOps1 (W4 m ρ c) (Proc.devRef .tc main_v6) = _
  generalize W4 m ρ c = F at h ⊢
  after_results_simp
  exact h
/-- Carried: no operation of the stretch writes it. -/
theorem at5_v31 (c : Dev nD) :
    W5 m ρ c (Proc.devRef .tc main_v31) = val_main_v31 (F := Ideal) (m ((c : Thread nD τ).loc main_arg1)) (m ((c : Thread nD τ).loc main_arg3)) := by
  have h := at4_v31 m ρ c
  show StableHlo.after hostOps1 (W4 m ρ c) (Proc.devRef .tc main_v31) = _
  generalize W4 m ρ c = F at h ⊢
  after_results_simp
  exact h
/-- Carried: no operation of the stretch writes it. -/
theorem at5_arg6 (c : Dev nD) :
    W5 m ρ c (Proc.devRef .tc main_arg6) = m ((c : Thread nD τ).loc main_arg6) := by
  have h := at4_arg6 m ρ c
  show StableHlo.after hostOps1 (W4 m ρ c) (Proc.devRef .tc main_arg6) = _
  generalize W4 m ρ c = F at h ⊢
  after_results_simp
  exact h
/-- Carried: no operation of the stretch writes it. -/
theorem at5_arg7 (c : Dev nD) :
    W5 m ρ c (Proc.devRef .tc main_arg7) = m ((c : Thread nD τ).loc main_arg7) := by
  have h := at4_arg7 m ρ c
  show StableHlo.after hostOps1 (W4 m ρ c) (Proc.devRef .tc main_arg7) = _
  generalize W4 m ρ c = F at h ⊢
  after_results_simp
  exact h
/-- Carried: no operation of the stretch writes it. -/
theorem at5_arg8 (c : Dev nD) :
    W5 m ρ c (Proc.devRef .tc main_arg8) = m ((c : Thread nD τ).loc main_arg8) := by
  have h := at4_arg8 m ρ c
  show StableHlo.after hostOps1 (W4 m ρ c) (Proc.devRef .tc main_arg8) = _
  generalize W4 m ρ c = F at h ⊢
  after_results_simp
  exact h
/-- Carried: no operation of the stretch writes it. -/
theorem at5_arg9 (c : Dev nD) :
    W5 m ρ c (Proc.devRef .tc main_arg9) = m ((c : Thread nD τ).loc main_arg9) := by
  have h := at4_arg9 m ρ c
  show StableHlo.after hostOps1 (W4 m ρ c) (Proc.devRef .tc main_arg9) = _
  generalize W4 m ρ c = F at h ⊢
  after_results_simp
  exact h
/-- Carried: no operation of the stretch writes it. -/
theorem at5_arg2 (c : Dev nD) :
    W5 m ρ c (Proc.devRef .tc main_arg2) = m ((c : Thread nD τ).loc main_arg2) := by
  have h := at4_arg2 m ρ c
  show StableHlo.after hostOps1 (W4 m ρ c) (Proc.devRef .tc main_arg2) = _
  generalize W4 m ρ c = F at h ⊢
  after_results_simp
  exact h
/-- Carried: no operation of the stretch writes it. -/
theorem at5_arg10 (c : Dev nD) :
    W5 m ρ c (Proc.devRef .tc main_arg10) = m ((c : Thread nD τ).loc main_arg10) := by
  have h := at4_arg10 m ρ c
  show StableHlo.after hostOps1 (W4 m ρ c) (Proc.devRef .tc main_arg10) = _
  generalize W4 m ρ c = F at h ⊢
  after_results_simp
  exact h
/-- Carried: no operation of the stretch writes it. -/
theorem at5_arg11 (c : Dev nD) :
    W5 m ρ c (Proc.devRef .tc main_arg11) = m ((c : Thread nD τ).loc main_arg11) := by
  have h := at4_arg11 m ρ c
  show StableHlo.after hostOps1 (W4 m ρ c) (Proc.devRef .tc main_arg11) = _
  generalize W4 m ρ c = F at h ⊢
  after_results_simp
  exact h
/-- The first layer's weighted sum over incoming edges. -/
theorem at5_v45 (c : Dev nD) :
    W5 m ρ c (Proc.devRef .tc main_v45) = val_main_v46 (F := Ideal) (m ((c : Thread nD τ).loc main_arg0)) (m ((c : Thread nD τ).loc main_arg1)) (m ((c : Thread nD τ).loc main_arg3)) (m ((c : Thread nD τ).loc main_arg4)) := by
  have hh := at4_v32 m ρ c
  have h3 := at4_v3 m ρ c
  have h6 := at4_v6 m ρ c
  have h31 := at4_v31 m ρ c
  show StableHlo.after hostOps1 (W4 m ρ c) (Proc.devRef .tc main_v45) = _
  generalize W4 m ρ c = F at hh h3 h6 h31 ⊢
  after_results_simp
  rw [hh, h3, h6, h31]
  rfl
/-- The first bias vector as a row. -/
theorem at5_v46 (c : Dev nD) :
    W5 m ρ c (Proc.devRef .tc main_v46) = val_main_v47 (F := Ideal) (m ((c : Thread nD τ).loc main_arg5)) := by
  have h := at4_arg5 m ρ c
  show StableHlo.after hostOps1 (W4 m ρ c) (Proc.devRef .tc main_v46) = _
  generalize W4 m ρ c = F at h ⊢
  after_results_simp
  rw [h]
  exact Cert.LibRowOfVector.shapeCast_eq_broadcastInDim (b := 64) (by decide) _ _ _

/-! ## After region 1 -/

theorem at6_v3 (c : Dev nD) :
    W6 m ρ c (Proc.devRef .tc main_v3) = val_main_v3 (F := Ideal) (m ((c : Thread nD τ).loc main_arg1)) :=
  (W6_of_ne m ρ c main_v3 (by decide)).trans (at5_v3 m ρ c)
theorem at6_v6 (c : Dev nD) :
    W6 m ρ c (Proc.devRef .tc main_v6) = val_main_v6 (F := Ideal) (m ((c : Thread nD τ).loc main_arg1)) :=
  (W6_of_ne m ρ c main_v6 (by decide)).trans (at5_v6 m ρ c)
theorem at6_v31 (c : Dev nD) :
    W6 m ρ c (Proc.devRef .tc main_v31) = val_main_v31 (F := Ideal) (m ((c : Thread nD τ).loc main_arg1)) (m ((c : Thread nD τ).loc main_arg3)) :=
  (W6_of_ne m ρ c main_v31 (by decide)).trans (at5_v31 m ρ c)
theorem at6_arg6 (c : Dev nD) :
    W6 m ρ c (Proc.devRef .tc main_arg6) = m ((c : Thread nD τ).loc main_arg6) :=
  (W6_of_ne m ρ c main_arg6 (by decide)).trans (at5_arg6 m ρ c)
theorem at6_arg7 (c : Dev nD) :
    W6 m ρ c (Proc.devRef .tc main_arg7) = m ((c : Thread nD τ).loc main_arg7) :=
  (W6_of_ne m ρ c main_arg7 (by decide)).trans (at5_arg7 m ρ c)
theorem at6_arg8 (c : Dev nD) :
    W6 m ρ c (Proc.devRef .tc main_arg8) = m ((c : Thread nD τ).loc main_arg8) :=
  (W6_of_ne m ρ c main_arg8 (by decide)).trans (at5_arg8 m ρ c)
theorem at6_arg9 (c : Dev nD) :
    W6 m ρ c (Proc.devRef .tc main_arg9) = m ((c : Thread nD τ).loc main_arg9) :=
  (W6_of_ne m ρ c main_arg9 (by decide)).trans (at5_arg9 m ρ c)
theorem at6_arg2 (c : Dev nD) :
    W6 m ρ c (Proc.devRef .tc main_arg2) = m ((c : Thread nD τ).loc main_arg2) :=
  (W6_of_ne m ρ c main_arg2 (by decide)).trans (at5_arg2 m ρ c)
theorem at6_arg10 (c : Dev nD) :
    W6 m ρ c (Proc.devRef .tc main_arg10) = m ((c : Thread nD τ).loc main_arg10) :=
  (W6_of_ne m ρ c main_arg10 (by decide)).trans (at5_arg10 m ρ c)
theorem at6_arg11 (c : Dev nD) :
    W6 m ρ c (Proc.devRef .tc main_arg11) = m ((c : Thread nD τ).loc main_arg11) :=
  (W6_of_ne m ρ c main_arg11 (by decide)).trans (at5_arg11 m ρ c)
/-- The first layer's output: bias added, clipped below at zero. -/
theorem at6_v47 (c : Dev nD) :
    W6 m ρ c (Proc.devRef .tc main_v47) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ((Cert.KernelIdeal.Bias.final1 (V5 m ρ) c).trans ?_)
  rw [Cert.ReferenceIdeal.Bias.ref_v50]
  exact congrArg₂ (Cert.Gcn.addRowClip (a := 100000) (b := 64) (Ideal.ofBits .f32 0x00000000#32)) (at5_v45 m ρ c) (at5_v46 m ρ c)

/-! ## After region 2 -/

theorem at7_v3 (c : Dev nD) :
    W7 m ρ c (Proc.devRef .tc main_v3) = val_main_v3 (F := Ideal) (m ((c : Thread nD τ).loc main_arg1)) :=
  (W7_of_ne m ρ c main_v3 (by decide)).trans (at6_v3 m ρ c)
theorem at7_v6 (c : Dev nD) :
    W7 m ρ c (Proc.devRef .tc main_v6) = val_main_v6 (F := Ideal) (m ((c : Thread nD τ).loc main_arg1)) :=
  (W7_of_ne m ρ c main_v6 (by decide)).trans (at6_v6 m ρ c)
theorem at7_v31 (c : Dev nD) :
    W7 m ρ c (Proc.devRef .tc main_v31) = val_main_v31 (F := Ideal) (m ((c : Thread nD τ).loc main_arg1)) (m ((c : Thread nD τ).loc main_arg3)) :=
  (W7_of_ne m ρ c main_v31 (by decide)).trans (at6_v31 m ρ c)
theorem at7_arg7 (c : Dev nD) :
    W7 m ρ c (Proc.devRef .tc main_arg7) = m ((c : Thread nD τ).loc main_arg7) :=
  (W7_of_ne m ρ c main_arg7 (by decide)).trans (at6_arg7 m ρ c)
theorem at7_arg8 (c : Dev nD) :
    W7 m ρ c (Proc.devRef .tc main_arg8) = m ((c : Thread nD τ).loc main_arg8) :=
  (W7_of_ne m ρ c main_arg8 (by decide)).trans (at6_arg8 m ρ c)
theorem at7_arg9 (c : Dev nD) :
    W7 m ρ c (Proc.devRef .tc main_arg9) = m ((c : Thread nD τ).loc main_arg9) :=
  (W7_of_ne m ρ c main_arg9 (by decide)).trans (at6_arg9 m ρ c)
theorem at7_arg2 (c : Dev nD) :
    W7 m ρ c (Proc.devRef .tc main_arg2) = m ((c : Thread nD τ).loc main_arg2) :=
  (W7_of_ne m ρ c main_arg2 (by decide)).trans (at6_arg2 m ρ c)
theorem at7_arg10 (c : Dev nD) :
    W7 m ρ c (Proc.devRef .tc main_arg10) = m ((c : Thread nD τ).loc main_arg10) :=
  (W7_of_ne m ρ c main_arg10 (by decide)).trans (at6_arg10 m ρ c)
theorem at7_arg11 (c : Dev nD) :
    W7 m ρ c (Proc.devRef .tc main_arg11) = m ((c : Thread nD τ).loc main_arg11) :=
  (W7_of_ne m ρ c main_arg11 (by decide)).trans (at6_arg11 m ρ c)
/-- The second layer's dense transform. -/
theorem at7_v48 (c : Dev nD) :
    W7 m ρ c (Proc.devRef .tc main_v48) = val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((Cert.KernelIdeal.Linear.final2 (V6 m ρ) c).trans ?_)
  rw [Cert.ReferenceIdeal.Linear.ref_v52]
  exact congrArg₂ (Cert.Gcn.linear (a := 100000) (n := 64) (b := 64)) (at6_v47 m ρ c) (at6_arg6 m ρ c)

end Cert.KernelIdeal.Chain

end
-- ==== Proof.BiasRegion3.lean ====
/-
  Region 3 of the kernel adds a bias row to every row of a [100000, 64] array and clips the sum below at zero.
  The grid has ten points; point t stages rows 10000·t … 10000·t + 9999 of the array as one [10000, 64] block,
  the [1, 64] bias row as the same one block at every point, and writes back the block of sums at the same rows.
  Entry (p, q) of the block written at point t is the array's entry (10000·t + p, q) plus the row's entry (0, q),
  or zero if that is larger; row r of the array lies in the block of point r / 10000, so the ten blocks fill the
  array and it ends holding the whole-array function of the specification.
-/
import proofs.«168690_j50672024158926_1_alg».proof.Proof.Gen.KernelIdeal.Frame
import proofs.«168690_j50672024158926_1_alg».proof.Proof.Spec
import Idealize.ShloMosaic.Lib.Pipeline.Value
import Idealize.ShloMosaic.Lib.ValueLayout

noncomputable section

namespace Cert.KernelIdeal.Bias

open Cert.KernelIdeal Idealize.ShloMosaic Idealize.ShloMosaic.TcCoe Idealize.SL.Sem
open Idealize.ShloMosaic.ValueIdx
open Idealize.ShloMosaic.Pipeline (Dat)

/-- The two zero offsets of a whole-block access, as the constant function. -/
theorem zero_offsets3 : (![0, 0] : Fin 2 → Nat) = fun _ => 0 := funext fun a => by fin_cases a <;> rfl

/-- The body's result at entry (p, q) of a block: the block's entry plus the row's entry in column q, clipped below at zero. -/
theorem pay3_apply (x0 : Vec Ideal S10000x64 .f32) (x1 : Vec Ideal S1x64 .f32) (p : Fin 10000) (q : Fin 64) :
    Gen.k3_pay1 (F := Ideal) x0 x1 (ix2 p q)
      = max (x0 (ix2 p q) + x1 (ix2 (0 : Fin 1) q)) (Ideal.ofBits .f32 0x00000000#32) := by
  have e0 : shapeCast S10000x64 x0 Gen.shapeCasts_S10000x64_S10000x64 = x0 := shapeCast_self x0 _
  have e1 : shapeCast S1x64 x1 Gen.shapeCasts_S1x64_S1x64 = x1 := shapeCast_self x1 _
  have e2 : broadcastTo S10000x64 x1 Gen.broadcasts_S1x64_S10000x64 (ix2 p q) = x1 (ix2 (0 : Fin 1) q) :=
    broadcastTo_1b_ab_apply x1 _ p q
  unfold Gen.k3_pay1
  show max (shapeCast S10000x64 x0 _ (ix2 p q) + broadcastTo S10000x64 (shapeCast S1x64 x1 _) _ (ix2 p q)) (Ideal.ofBits .f32 0x00000000#32) = _
  rw [e0, e1, e2]

/-- The specification's function at an entry of the array, from the array's entry there and the row's entry in the same
    column, the three indices given by their coordinates. -/
theorem sum_at3 (A : S100000x64.Idx → EReal) (R : S1x64.Idx → EReal) {i0 i2 : S100000x64.Idx} {i1 : S1x64.Idx}
    {r : Fin 100000} {q : Fin 64} (e0 : i0 = ix2 r q) (e1 : i1 = ix2 (0 : Fin 1) q) (e2 : i2 = ix2 r q) :
    max (A i0 + R i1) (Ideal.ofBits .f32 0x00000000#32) = Cert.Gcn.addRowClip (Ideal.ofBits .f32 0x00000000#32) A R i2 := by
  subst e0 e1 e2; rfl

/-- The windows' block indices at point t: the array windows are at block row t, the bias row always at block 0. -/
theorem block_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What point t writes back is block t of the specification's function of the two arrays as the region finds them. -/
theorem flushed3_eq (c : Dev nD) (t : Fin cfg3.N) :
    (Gen.dat3 (F := Ideal) V c).flushed 2 t
      = ((cfg3.win 2).blk t).view.read (Elt Ideal)
          (Cert.Gcn.addRowClip (Ideal.ofBits .f32 0x00000000#32) (V c main_v61) (V c main_v62)) := by
  show (cfg3.win 2).cut (grid3.coords t) ((Gen.dat3 V c).after 2 t) = _
  rw [Gen.after3_2]
  unfold Gen.out3_2
  rw [View.canon_unit_zero zero_offsets3]
  simp only [View.ld_unit_zero (S := S10000x64) zero_offsets3, View.ld_unit_zero (S := S1x64) zero_offsets3]
  obtain ⟨i00, i01, i10, i11, i20, i21⟩ := block_index3 t
  have ht : t.val < 10 := (show t.val < grid3.N from t.isLt).trans_eq Gen.N_3
  funext j
  obtain ⟨p, q, rfl⟩ : ∃ (p : Fin 10000) (q : Fin 64), j = ix2 p q := ⟨j 0, j 1, eq_ix2 j⟩
  have hp : p.val < 10000 := p.isLt
  have hq : q.val < 64 := q.isLt
  have e0 : ((cfg3.win 0).blk t).view.emb (ix2 p q) = ix2 (⟨t.val * 10000 + p.val, by omega⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have e1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have e2 : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  refine (pay3_apply (Gen.iblk3 V c 0 t) (Gen.iblk3 V c 1 t) p q).trans ?_
  exact sum_at3 (V c main_v61) (V c main_v62) e0 e1 e2

/-- An index of the array is in point t's block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v63).slice (win3_2.rect t)).set ↔ _
  rw [View.set_slice_whole, Rect.mem_set_unit]
  exact Iff.rfl

/-- Row r of the array is in the block of point r / 10000, which is written back. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := Gen.N_3
  let t : Fin cfg3.N := ⟨(i 0).val / 10000, by show (i 0).val / 10000 < grid3.N; omega⟩
  obtain ⟨-, -, -, -, i20, i21⟩ := block_index3 t
  have tv : t.val = (i 0).val / 10000 := rfl
  refine ⟨t, Gen.flush3_2 t, ?_⟩
  rw [mem_block3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array region 3 leaves: the bias row added to every row of the array it was given, clipped below at zero. -/
theorem final3 (c : Dev nD) :
    (Gen.dat3 (F := Ideal) V c).arrAt 2 cfg3.N
      = Cert.Gcn.addRowClip (Ideal.ofBits .f32 0x00000000#32) (V c main_v61) (V c main_v62) :=
  (Gen.dat3 (F := Ideal) V c).arrAt_eq_of_cover 2 _ (fun t _ => flushed3_eq V c t) (cover3)

end

end Cert.KernelIdeal.Bias

end
-- ==== Proof.LinearRegion4.lean ====
/-
  Layer 3's dense transform over the whole node array.

  The launch walks ten points; point t loads rows 10000·t … 10000·t + 9999 of the node features and the whole weight
  matrix, and writes rows 10000·t … of the output back. What it writes is those rows of ONE function of the two arrays
  as the launch finds them — the product with the transposed weights — and the ten blocks of rows cover the output, so
  the output array ends holding that function.
-/
import proofs.«168690_j50672024158926_1_alg».proof.Proof.Gen.KernelIdeal.Frame
import proofs.«168690_j50672024158926_1_alg».proof.Proof.LinearBlock

set_option maxRecDepth 16384

noncomputable section

open scoped BigOperators

namespace Cert.KernelIdeal.Linear

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem origin4 : (![0, 0] : Fin 2 → Nat) = fun _ => 0 := funext fun a => by fin_cases a <;> rfl

/-- The product with the transposed weights at an entry of the array, from the entries of row `r` of the features and
    row `q` of the weights, the indices given by their coordinates. -/
theorem row_sum4 (A : S100000x64.Idx → EReal) (W : S64x64.Idx → EReal) {r : Fin 100000} {q : Fin 64}
    (f : Fin 64 → S100000x64.Idx) (g : Fin 64 → S64x64.Idx) {i : S100000x64.Idx}
    (ef : ∀ k, f k = ix2 r k) (eg : ∀ k, g k = ix2 q k) (ei : i = ix2 r q) :
    ∑ k : Fin 64, A (f k) * W (g k) = Cert.Gcn.linear A W i := by
  subst ei
  refine Finset.sum_congr rfl fun k _ => ?_
  rw [ef, eg]

/-- The printed index maps over the grid: the feature window and the output window are at block row `t`, the weight
    window always at its one block. -/
theorem blocks4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt Ideal) ((c : Thread nD τ).loc b))

/-- What point `t` writes back is block `t` of the product of the feature array with the transposed weights. -/
theorem flushed4 (c : Dev nD) (t : Fin cfg4.N) :
    (dat4 (F := Ideal) V c).flushed 2 t
      = ((cfg4.win 2).blk t).view.read (Elt Ideal) (Cert.Gcn.linear (V c main_v63) (V c main_arg8)) := by
  show (cfg4.win 2).cut (grid4.coords t) ((dat4 V c).after 2 t) = _
  rw [after4_2]
  unfold out4_2
  rw [View.canon_unit_zero origin4]
  simp only [View.ld_unit_zero (S := S10000x64) origin4, View.ld_unit_zero (S := S64x64) origin4]
  obtain ⟨e0, e1, e2, e3, e4, e5⟩ := blocks4 t
  have ht : t.val < 10 := (show t.val < grid4.N from t.isLt).trans_eq N_4
  funext j
  obtain ⟨p, q, rfl⟩ : ∃ (p : Fin 10000) (q : Fin 64), j = ix2 p q := ⟨j 0, j 1, eq_ix2 j⟩
  have hp : p.val < 10000 := p.isLt
  have hq : q.val < 64 := q.isLt
  have h0 : ∀ k : Fin 64, ((cfg4.win 0).blk t).view.emb (ix2 p k)
      = ix2 (⟨t.val * 10000 + p.val, by omega⟩ : Fin 100000) k := fun k => by
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  have h1 : ∀ k : Fin 64, ((cfg4.win 1).blk t).view.emb (ix2 q k) = ix2 q k := fun k => by
    funext a; apply Fin.ext
    match a with
    | ⟨0, _⟩ => show win4_1.index t (0 : Fin 2) * 64 + 1 * q.val = q.val; omega
    | ⟨1, _⟩ => show win4_1.index t (1 : Fin 2) * 64 + 1 * k.val = k.val; omega
  have h2 : ((cfg4.win 2).blk t).view.emb (ix2 p q) = ix2 (⟨t.val * 10000 + p.val, by omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  refine (pay4_apply (iblk4 V c 0 t) (iblk4 V c 1 t) p q).trans ?_
  exact row_sum4 (V c main_v63) (V c main_arg8) (fun k => ((cfg4.win 0).blk t).view.emb (ix2 p k))
    (fun k => ((cfg4.win 1).blk t).view.emb (ix2 q k)) h0 h1 h2

/-- An index of the output is in point `t`'s block iff each coordinate is in the block's range on its axis. -/
theorem mem_block4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v64).slice (win4_2.rect t)).set ↔ _
  rw [View.set_slice_whole, Rect.mem_set_unit]
  exact Iff.rfl

/-- Row `r` of the output is in the block of point `r / 10000`, which writes back. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; omega⟩
  obtain ⟨-, -, -, -, e4, e5⟩ := blocks4 t
  have tv : t.val = (i 0).val / 10000 := rfl
  refine ⟨t, flush4_2 t, ?_⟩
  rw [mem_block4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- After the launch the output array is the product of the feature array, as the launch found it, with the transposed
    weight matrix. -/
theorem final4 (c : Dev nD) :
    (dat4 (F := Ideal) V c).arrAt 2 cfg4.N = Cert.Gcn.linear (V c main_v63) (V c main_arg8) :=
  (dat4 (F := Ideal) V c).arrAt_eq_of_cover 2 _ (fun t _ => flushed4 V c t) (cover4)

end

end Cert.KernelIdeal.Linear

end
-- ==== Proof.ChainLayer2.lean ====
/-
  The second layer, and the third layer's dense transform.

  The host aggregates the second layer's transformed features over the edges; region 3 adds the second bias row and
  clips below at zero; region 4 transforms the result by the third weight matrix. The edge arrays, the normalisation
  factors and the arguments not yet used are carried unchanged.
-/
import proofs.«168690_j50672024158926_1_alg».proof.Proof.ChainLayer1
import proofs.«168690_j50672024158926_1_alg».proof.Proof.BiasRegion3
import proofs.«168690_j50672024158926_1_alg».proof.Proof.LinearRegion4

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the second aggregation -/

/-- Carried: no operation of the stretch writes it. -/
theorem at8_v3 (c : Dev nD) :
    W8 m ρ c (Proc.devRef .tc main_v3) = val_main_v3 (F := Ideal) (m ((c : Thread nD τ).loc main_arg1)) := by
  have h := at7_v3 m ρ c
  show StableHlo.after hostOps3 (W7 m ρ c) (Proc.devRef .tc main_v3) = _
  generalize W7 m ρ c = F at h ⊢
  after_results_simp
  exact h
/-- Carried: no operation of the stretch writes it. -/
theorem at8_v6 (c : Dev nD) :
    W8 m ρ c (Proc.devRef .tc main_v6) = val_main_v6 (F := Ideal) (m ((c : Thread nD τ).loc main_arg1)) := by
  have h := at7_v6 m ρ c
  show StableHlo.after hostOps3 (W7 m ρ c) (Proc.devRef .tc main_v6) = _
  generalize W7 m ρ c = F at h ⊢
  after_results_simp
  exact h
/-- Carried: no operation of the stretch writes it. -/
theorem at8_v31 (c : Dev nD) :
    W8 m ρ c (Proc.devRef .tc main_v31) = val_main_v31 (F := Ideal) (m ((c : Thread nD τ).loc main_arg1)) (m ((c : Thread nD τ).loc main_arg3)) := by
  have h := at7_v31 m ρ c
  show StableHlo.after hostOps3 (W7 m ρ c) (Proc.devRef .tc main_v31) = _
  generalize W7 m ρ c = F at h ⊢
  after_results_simp
  exact h
/-- Carried: no operation of the stretch writes it. -/
theorem at8_arg8 (c : Dev nD) :
    W8 m ρ c (Proc.devRef .tc main_arg8) = m ((c : Thread nD τ).loc main_arg8) := by
  have h := at7_arg8 m ρ c
  show StableHlo.after hostOps3 (W7 m ρ c) (Proc.devRef .tc main_arg8) = _
  generalize W7 m ρ c = F at h ⊢
  after_results_simp
  exact h
/-- Carried: no operation of the stretch writes it. -/
theorem at8_arg9 (c : Dev nD) :
    W8 m ρ c (Proc.devRef .tc main_arg9) = m ((c : Thread nD τ).loc main_arg9) := by
  have h := at7_arg9 m ρ c
  show StableHlo.after hostOps3 (W7 m ρ c) (Proc.devRef .tc main_arg9) = _
  generalize W7 m ρ c = F at h ⊢
  after_results_simp
  exact h
/-- Carried: no operation of the stretch writes it. -/
theorem at8_arg2 (c : Dev nD) :
    W8 m ρ c (Proc.devRef .tc main_arg2) = m ((c : Thread nD τ).loc main_arg2) := by
  have h := at7_arg2 m ρ c
  show StableHlo.after hostOps3 (W7 m ρ c) (Proc.devRef .tc main_arg2) = _
  generalize W7 m ρ c = F at h ⊢
  after_results_simp
  exact h
/-- Carried: no operation of the stretch writes it. -/
theorem at8_arg10 (c : Dev nD) :
    W8 m ρ c (Proc.devRef .tc main_arg10) = m ((c : Thread nD τ).loc main_arg10) := by
  have h := at7_arg10 m ρ c
  show StableHlo.after hostOps3 (W7 m ρ c) (Proc.devRef .tc main_arg10) = _
  generalize W7 m ρ c = F at h ⊢
  after_results_simp
  exact h
/-- Carried: no operation of the stretch writes it. -/
theorem at8_arg11 (c : Dev nD) :
    W8 m ρ c (Proc.devRef .tc main_arg11) = m ((c : Thread nD τ).loc main_arg11) := by
  have h := at7_arg11 m ρ c
  show StableHlo.after hostOps3 (W7 m ρ c) (Proc.devRef .tc main_arg11) = _
  generalize W7 m ρ c = F at h ⊢
  after_results_simp
  exact h
/-- The second layer's weighted sum over incoming edges. -/
theorem at8_v61 (c : Dev nD) :
    W8 m ρ c (Proc.devRef .tc main_v61) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have hh := at7_v48 m ρ c
  have h3 := at7_v3 m ρ c
  have h6 := at7_v6 m ρ c
  have h31 := at7_v31 m ρ c
  show StableHlo.after hostOps3 (W7 m ρ c) (Proc.devRef .tc main_v61) = _
  generalize W7 m ρ c = F at hh h3 h6 h31 ⊢
  after_results_simp
  rw [hh, h3, h6, h31]
  rfl
/-- The second bias vector as a row. -/
theorem at8_v62 (c : Dev nD) :
    W8 m ρ c (Proc.devRef .tc main_v62) = val_main_v66 (F := Ideal) (m ((c : Thread nD τ).loc main_arg7)) := by
  have h := at7_arg7 m ρ c
  show StableHlo.after hostOps3 (W7 m ρ c) (Proc.devRef .tc main_v62) = _
  generalize W7 m ρ c = F at h ⊢
  after_results_simp
  rw [h]
  exact Cert.LibRowOfVector.shapeCast_eq_broadcastInDim (b := 64) (by decide) _ _ _

/-! ## After region 3 -/

theorem at9_v3 (c : Dev nD) :
    W9 m ρ c (Proc.devRef .tc main_v3) = val_main_v3 (F := Ideal) (m ((c : Thread nD τ).loc main_arg1)) :=
  (W9_of_ne m ρ c main_v3 (by decide)).trans (at8_v3 m ρ c)
theorem at9_v6 (c : Dev nD) :
    W9 m ρ c (Proc.devRef .tc main_v6) = val_main_v6 (F := Ideal) (m ((c : Thread nD τ).loc main_arg1)) :=
  (W9_of_ne m ρ c main_v6 (by decide)).trans (at8_v6 m ρ c)
theorem at9_v31 (c : Dev nD) :
    W9 m ρ c (Proc.devRef .tc main_v31) = val_main_v31 (F := Ideal) (m ((c : Thread nD τ).loc main_arg1)) (m ((c : Thread nD τ).loc main_arg3)) :=
  (W9_of_ne m ρ c main_v31 (by decide)).trans (at8_v31 m ρ c)
theorem at9_arg8 (c : Dev nD) :
    W9 m ρ c (Proc.devRef .tc main_arg8) = m ((c : Thread nD τ).loc main_arg8) :=
  (W9_of_ne m ρ c main_arg8 (by decide)).trans (at8_arg8 m ρ c)
theorem at9_arg9 (c : Dev nD) :
    W9 m ρ c (Proc.devRef .tc main_arg9) = m ((c : Thread nD τ).loc main_arg9) :=
  (W9_of_ne m ρ c main_arg9 (by decide)).trans (at8_arg9 m ρ c)
theorem at9_arg2 (c : Dev nD) :
    W9 m ρ c (Proc.devRef .tc main_arg2) = m ((c : Thread nD τ).loc main_arg2) :=
  (W9_of_ne m ρ c main_arg2 (by decide)).trans (at8_arg2 m ρ c)
theorem at9_arg10 (c : Dev nD) :
    W9 m ρ c (Proc.devRef .tc main_arg10) = m ((c : Thread nD τ).loc main_arg10) :=
  (W9_of_ne m ρ c main_arg10 (by decide)).trans (at8_arg10 m ρ c)
theorem at9_arg11 (c : Dev nD) :
    W9 m ρ c (Proc.devRef .tc main_arg11) = m ((c : Thread nD τ).loc main_arg11) :=
  (W9_of_ne m ρ c main_arg11 (by decide)).trans (at8_arg11 m ρ c)
/-- The second layer's output: bias added, clipped below at zero. -/
theorem at9_v63 (c : Dev nD) :
    W9 m ρ c (Proc.devRef .tc main_v63) = val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 2).trans ((Cert.KernelIdeal.Bias.final3 (V8 m ρ) c).trans ?_)
  rw [Cert.ReferenceIdeal.Bias.ref_v69]
  exact congrArg₂ (Cert.Gcn.addRowClip (a := 100000) (b := 64) (Ideal.ofBits .f32 0x00000000#32)) (at8_v61 m ρ c) (at8_v62 m ρ c)

/-! ## After region 4 -/

theorem at10_v3 (c : Dev nD) :
    W10 m ρ c (Proc.devRef .tc main_v3) = val_main_v3 (F := Ideal) (m ((c : Thread nD τ).loc main_arg1)) :=
  (W10_of_ne m ρ c main_v3 (by decide)).trans (at9_v3 m ρ c)
theorem at10_v6 (c : Dev nD) :
    W10 m ρ c (Proc.devRef .tc main_v6) = val_main_v6 (F := Ideal) (m ((c : Thread nD τ).loc main_arg1)) :=
  (W10_of_ne m ρ c main_v6 (by decide)).trans (at9_v6 m ρ c)
theorem at10_v31 (c : Dev nD) :
    W10 m ρ c (Proc.devRef .tc main_v31) = val_main_v31 (F := Ideal) (m ((c : Thread nD τ).loc main_arg1)) (m ((c : Thread nD τ).loc main_arg3)) :=
  (W10_of_ne m ρ c main_v31 (by decide)).trans (at9_v31 m ρ c)
theorem at10_arg9 (c : Dev nD) :
    W10 m ρ c (Proc.devRef .tc main_arg9) = m ((c : Thread nD τ).loc main_arg9) :=
  (W10_of_ne m ρ c main_arg9 (by decide)).trans (at9_arg9 m ρ c)
theorem at10_arg2 (c : Dev nD) :
    W10 m ρ c (Proc.devRef .tc main_arg2) = m ((c : Thread nD τ).loc main_arg2) :=
  (W10_of_ne m ρ c main_arg2 (by decide)).trans (at9_arg2 m ρ c)
theorem at10_arg10 (c : Dev nD) :
    W10 m ρ c (Proc.devRef .tc main_arg10) = m ((c : Thread nD τ).loc main_arg10) :=
  (W10_of_ne m ρ c main_arg10 (by decide)).trans (at9_arg10 m ρ c)
theorem at10_arg11 (c : Dev nD) :
    W10 m ρ c (Proc.devRef .tc main_arg11) = m ((c : Thread nD τ).loc main_arg11) :=
  (W10_of_ne m ρ c main_arg11 (by decide)).trans (at9_arg11 m ρ c)
/-- The third layer's dense transform. -/
theorem at10_v64 (c : Dev nD) :
    W10 m ρ c (Proc.devRef .tc main_v64) = val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Cert.KernelIdeal.Linear.final4 (V9 m ρ) c).trans ?_)
  rw [Cert.ReferenceIdeal.Linear.ref_v71]
  exact congrArg₂ (Cert.Gcn.linear (a := 100000) (n := 64) (b := 64)) (at9_v63 m ρ c) (at9_arg8 m ρ c)

end Cert.KernelIdeal.Chain

end
-- ==== Proof.BiasRegion5.lean ====
/-
  Region 5 of the kernel adds a bias row to every row of a [100000, 64] array.
  The grid has ten points; point t stages rows 10000·t … 10000·t + 9999 of the array as one [10000, 64] block,
  the [1, 64] bias row as the same one block at every point, and writes back the block of sums at the same rows.
  Entry (p, q) of the block written at point t is the array's entry (10000·t + p, q) plus the row's entry (0, q); row r of the array lies in the block of point r / 10000, so the ten blocks fill the
  array and it ends holding the whole-array function of the specification.
-/
import proofs.«168690_j50672024158926_1_alg».proof.Proof.Gen.KernelIdeal.Frame
import proofs.«168690_j50672024158926_1_alg».proof.Proof.Spec
import Idealize.ShloMosaic.Lib.Pipeline.Value
import Idealize.ShloMosaic.Lib.ValueLayout

noncomputable section

namespace Cert.KernelIdeal.Bias

open Cert.KernelIdeal Idealize.ShloMosaic Idealize.ShloMosaic.TcCoe Idealize.SL.Sem
open Idealize.ShloMosaic.ValueIdx
open Idealize.ShloMosaic.Pipeline (Dat)

/-- The two zero offsets of a whole-block access, as the constant function. -/
theorem zero_offsets5 : (![0, 0] : Fin 2 → Nat) = fun _ => 0 := funext fun a => by fin_cases a <;> rfl

/-- The body's result at entry (p, q) of a block: the block's entry plus the row's entry in column q. -/
theorem pay5_apply (x0 : Vec Ideal S10000x64 .f32) (x1 : Vec Ideal S1x64 .f32) (p : Fin 10000) (q : Fin 64) :
    Gen.k5_pay1 (F := Ideal) x0 x1 (ix2 p q)
      = x0 (ix2 p q) + x1 (ix2 (0 : Fin 1) q) := by
  have e0 : shapeCast S10000x64 x0 Gen.shapeCasts_S10000x64_S10000x64 = x0 := shapeCast_self x0 _
  have e1 : shapeCast S1x64 x1 Gen.shapeCasts_S1x64_S1x64 = x1 := shapeCast_self x1 _
  have e2 : broadcastTo S10000x64 x1 Gen.broadcasts_S1x64_S10000x64 (ix2 p q) = x1 (ix2 (0 : Fin 1) q) :=
    broadcastTo_1b_ab_apply x1 _ p q
  unfold Gen.k5_pay1
  show shapeCast S10000x64 x0 _ (ix2 p q) + broadcastTo S10000x64 (shapeCast S1x64 x1 _) _ (ix2 p q) = _
  rw [e0, e1, e2]

/-- The specification's function at an entry of the array, from the array's entry there and the row's entry in the same
    column, the three indices given by their coordinates. -/
theorem sum_at5 (A : S100000x64.Idx → EReal) (R : S1x64.Idx → EReal) {i0 i2 : S100000x64.Idx} {i1 : S1x64.Idx}
    {r : Fin 100000} {q : Fin 64} (e0 : i0 = ix2 r q) (e1 : i1 = ix2 (0 : Fin 1) q) (e2 : i2 = ix2 r q) :
    A i0 + R i1 = Cert.Gcn.addRow A R i2 := by
  subst e0 e1 e2; rfl

/-- The windows' block indices at point t: the array windows are at block row t, the bias row always at block 0. -/
theorem block_index5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- What point t writes back is block t of the specification's function of the two arrays as the region finds them. -/
theorem flushed5_eq (c : Dev nD) (t : Fin cfg5.N) :
    (Gen.dat5 (F := Ideal) V c).flushed 2 t
      = ((cfg5.win 2).blk t).view.read (Elt Ideal)
          (Cert.Gcn.addRow (V c main_v77) (V c main_v78)) := by
  show (cfg5.win 2).cut (grid5.coords t) ((Gen.dat5 V c).after 2 t) = _
  rw [Gen.after5_2]
  unfold Gen.out5_2
  rw [View.canon_unit_zero zero_offsets5]
  simp only [View.ld_unit_zero (S := S10000x64) zero_offsets5, View.ld_unit_zero (S := S1x64) zero_offsets5]
  obtain ⟨i00, i01, i10, i11, i20, i21⟩ := block_index5 t
  have ht : t.val < 10 := (show t.val < grid5.N from t.isLt).trans_eq Gen.N_5
  funext j
  obtain ⟨p, q, rfl⟩ : ∃ (p : Fin 10000) (q : Fin 64), j = ix2 p q := ⟨j 0, j 1, eq_ix2 j⟩
  have hp : p.val < 10000 := p.isLt
  have hq : q.val < 64 := q.isLt
  have e0 : ((cfg5.win 0).blk t).view.emb (ix2 p q) = ix2 (⟨t.val * 10000 + p.val, by omega⟩ : Fin 100000) q := by
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have e1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 64 + 1 * q.val = q.val; omega
  have e2 : ((cfg5.win 2).blk t).view.emb (ix2 p q) = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  refine (pay5_apply (Gen.iblk5 V c 0 t) (Gen.iblk5 V c 1 t) p q).trans ?_
  exact sum_at5 (V c main_v77) (V c main_v78) e0 e1 e2

/-- An index of the array is in point t's block iff each coordinate is in the block's range on its axis. -/
theorem mem_block5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v79).slice (win5_2.rect t)).set ↔ _
  rw [View.set_slice_whole, Rect.mem_set_unit]
  exact Iff.rfl

/-- Row r of the array is in the block of point r / 10000, which is written back. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : grid5.N = 10 := Gen.N_5
  let t : Fin cfg5.N := ⟨(i 0).val / 10000, by show (i 0).val / 10000 < grid5.N; omega⟩
  obtain ⟨-, -, -, -, i20, i21⟩ := block_index5 t
  have tv : t.val = (i 0).val / 10000 := rfl
  refine ⟨t, Gen.flush5_2 t, ?_⟩
  rw [mem_block5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The array region 5 leaves: the bias row added to every row of the array it was given. -/
theorem final5 (c : Dev nD) :
    (Gen.dat5 (F := Ideal) V c).arrAt 2 cfg5.N
      = Cert.Gcn.addRow (V c main_v77) (V c main_v78) :=
  (Gen.dat5 (F := Ideal) V c).arrAt_eq_of_cover 2 _ (fun t _ => flushed5_eq V c t) (cover5)

end

end Cert.KernelIdeal.Bias

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.ClassifierBlock.lean ====
/-
  The classifier body's arithmetic, read as the specification's functions.

  The body multiplies the pooled features [128, 64] by the transposed weights [10, 64] into a zero accumulator and adds
  the bias row to every row: entry (p, q) of the logits is the sum over k of pooled (p, k) · weight (q, k), plus
  bias q. It then takes each row's maximum m (a fold of max started at minus infinity), the differences z − m, the
  row's sum of the exponentials of the differences, and subtracts the logarithm of that sum from each difference.
  A change of float format is the identity on the extended reals, so the two roundings on the way into the product
  drop out; a cast to the same shape is the identity.
-/
import proofs.«168690_j50672024158926_1_alg».proof.Proof.Gen.KernelIdeal.Skeleton
import proofs.«168690_j50672024158926_1_alg».proof.Proof.Spec
import proofs.«168690_j50672024158926_1_alg».proof.Proof.LibMatmulAt
import proofs.«168690_j50672024158926_1_alg».proof.Proof.LibColBroadcast
import proofs.«168690_j50672024158926_1_alg».proof.Proof.LibColumnCast
import Idealize.ShloMosaic.Lib.ValueLayout
import Idealize.ShloMosaic.PureOps.Ideal.Laws

noncomputable section

open scoped BigOperators

namespace Cert.KernelIdeal.Classifier

open Cert.KernelIdeal Cert.KernelIdeal.Gen Idealize.ShloMosaic Idealize.ShloMosaic.ValueIdx

/-! ## Where the product's two operand indices sit -/

theorem lhs_0 (i : S128x10.Idx) (q : dot_S128x64_S64x10_S128x10_1_0_0_1_n_n.contr.Idx) :
    (dot_S128x64_S64x10_S128x10_1_0_0_1_n_n.lhsIdx i q 0).val = (i 0).val := by
  unfold DotDims.lhsIdx
  rw [dif_neg (show ¬(0 : Fin S128x64.rank) ∈ dot_S128x64_S64x10_S128x10_1_0_0_1_n_n.lhsBatch by decide),
    dif_pos (show (0 : Fin S128x64.rank) ∈ dot_S128x64_S64x10_S128x10_1_0_0_1_n_n.lhsNonContracting by decide)]
  rfl
theorem lhs_1 (i : S128x10.Idx) (q : dot_S128x64_S64x10_S128x10_1_0_0_1_n_n.contr.Idx) :
    (dot_S128x64_S64x10_S128x10_1_0_0_1_n_n.lhsIdx i q 1).val = (q ⟨0, by decide⟩).val :=
  dot_S128x64_S64x10_S128x10_1_0_0_1_n_n.lhsIdx_val_of_single rfl i q
theorem rhs_0 (i : S128x10.Idx) (q : dot_S128x64_S64x10_S128x10_1_0_0_1_n_n.contr.Idx) :
    (dot_S128x64_S64x10_S128x10_1_0_0_1_n_n.rhsIdx i q 0).val = (q ⟨0, by decide⟩).val :=
  dot_S128x64_S64x10_S128x10_1_0_0_1_n_n.rhsIdx_val_of_single rfl i q
theorem rhs_1 (i : S128x10.Idx) (q : dot_S128x64_S64x10_S128x10_1_0_0_1_n_n.contr.Idx) :
    (dot_S128x64_S64x10_S128x10_1_0_0_1_n_n.rhsIdx i q 1).val = (i 1).val := by
  unfold DotDims.rhsIdx
  rw [dif_neg (show ¬(1 : Fin S64x10.rank) ∈ dot_S128x64_S64x10_S128x10_1_0_0_1_n_n.rhsBatch by decide),
    dif_pos (show (1 : Fin S64x10.rank) ∈ dot_S128x64_S64x10_S128x10_1_0_0_1_n_n.rhsNonContracting by decide)]
  rfl

/-! ## The body's value in two steps -/

/-- The logits as the body computes them. -/
def logits (x0 : Vec Ideal S128x64 .f32) (x1 : Vec Ideal S10x64 .f32) (x2 : Vec Ideal S1x10 .f32) : FVec Ideal S128x10 .f32 :=
  addf
    (matmul dot_S128x64_S64x10_S128x10_1_0_0_1_n_n none
      (truncf .bf16 (shapeCast S128x64 x0 shapeCasts_S128x64_S128x64) bitsLt_bf16_f32)
      (transpose S64x10 [1, 0] (truncf .bf16 x1 bitsLt_bf16_f32) transposes_S10x64_p1_0_S64x10)
      (constant S128x10 .f32 0x00000000#32))
    (broadcastTo S128x10 (shapeCast S1x10 x2 shapeCasts_S1x10_S1x10) broadcasts_S1x10_S128x10)

/-- Each row's maximum as the body computes it. -/
def rowMaxV (z : FVec Ideal S128x10 .f32) : FVec Ideal S128 .f32 :=
  multiReduction .maximumf [1] S128 z 0xFF800000#32 reduces_S128x10_S128 (.inl rfl) rfl

/-- The differences from the row's maximum as the body computes them. -/
def centred (z : FVec Ideal S128x10 .f32) : FVec Ideal S128x10 .f32 :=
  subf z (broadcastTo S128x10 (shapeCast S128x1 (rowMaxV z) shapeCasts_S128_S128x1) broadcasts_S128x1_S128x10)

/-- The logarithm of the softmax of every row as the body computes it. -/
def rowLogSoftmax (z : FVec Ideal S128x10 .f32) : FVec Ideal S128x10 .f32 :=
  subf (centred z)
    (broadcastTo S128x10
      (log (shapeCast S128x1
        (multiReduction .add [1] S128 (exp (centred z)) 0x00000000#32 reduces_S128x10_S128 (.inl rfl) rfl)
        shapeCasts_S128_S128x1))
      broadcasts_S128x1_S128x10)

/-- The body's payload is the second step of the first. -/
theorem pay_steps (x0 : Vec Ideal S128x64 .f32) (x1 : Vec Ideal S10x64 .f32) (x2 : Vec Ideal S1x10 .f32) :
    k6_pay1 (F := Ideal) x0 x1 x2 = rowLogSoftmax (logits x0 x1 x2) := rfl

/-! ## Each step at an index -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

theorem logits_apply (x0 : Vec Ideal S128x64 .f32) (x1 : Vec Ideal S10x64 .f32) (x2 : Vec Ideal S1x10 .f32)
    (p : Fin 128) (q : Fin 10) :
    logits x0 x1 x2 (ix2 p q) = (∑ k : Fin 64, x0 (ix2 p k) * x1 (ix2 q k)) + x2 (ix2 (0 : Fin 1) q) := by
  unfold logits
  rw [addf_apply, MatmulAt.matmul_zero_ix2 dot_S128x64_S64x10_S128x10_1_0_0_1_n_n rfl rfl lhs_0 lhs_1 rhs_0 rhs_1 none _ _ p q,
    broadcastTo_1b_ab_apply, shapeCast_self, shapeCast_self]
  have et : ∀ k : Fin 64, transpose S64x10 [1, 0] (truncf .bf16 x1 bitsLt_bf16_f32 : FVec Ideal S10x64 .bf16)
      transposes_S10x64_p1_0_S64x10 (ix2 k q) = x1 (ix2 q k) := fun k =>
    transpose_ix2_apply (a := 10) (b := 64) (truncf .bf16 x1 bitsLt_bf16_f32 : FVec Ideal S10x64 .bf16)
      transposes_S10x64_p1_0_S64x10 k q
  simp only [truncf_apply, et]

theorem logits_eq (x0 : Vec Ideal S128x64 .f32) (x1 : Vec Ideal S10x64 .f32) (x2 : Vec Ideal S1x10 .f32) :
    logits x0 x1 x2 = Cert.Gcn.addRow (Cert.Gcn.linear x0 x1) x2 := by
  funext i
  obtain ⟨p, q, rfl⟩ : ∃ (p : Fin 128) (q : Fin 10), i = ix2 p q := ⟨i 0, i 1, eq_ix2 i⟩
  rw [logits_apply, Cert.Gcn.addRow_apply, Cert.Gcn.linear_apply]

/-- The index of row `p` with column `k` inserted is `(p, k)`. -/
theorem lift_row (p : Fin 128) (k : Fin 10) : reduces_S128x10_S128.lift (ix1 p) k = ix2 p k :=
  funext fun a => Fin.ext (by match a with | ⟨0, _⟩ => rfl | ⟨1, _⟩ => rfl)

theorem rowMaxV_apply (z : FVec Ideal S128x10 .f32) (p : Fin 128) :
    rowMaxV z (ix1 p) = Cert.Gcn.rowMax (Ideal.ofBits .f32 0xFF800000#32) z p := by
  unfold rowMaxV
  refine (Ideal.multiReduction_maximumf_single z 0xFF800000#32 reduces_S128x10_S128 (.inl rfl) rfl (ix1 p)).trans ?_
  exact congrArg (fun f : Fin 10 → EReal => (Finset.univ : Finset (Fin 10)).fold max (Ideal.ofBits .f32 0xFF800000#32) f)
    (funext fun k => congrArg z (lift_row p k))

theorem rowSum_apply (e : FVec Ideal S128x10 .f32) (p : Fin 128) :
    multiReduction .add [1] S128 e 0x00000000#32 reduces_S128x10_S128 (.inl rfl) rfl (ix1 p) = ∑ k : Fin 10, e (ix2 p k) := by
  refine (Ideal.multiReduction_add_single e 0x00000000#32 reduces_S128x10_S128 (.inl rfl) rfl (ix1 p)).trans ?_
  exact Finset.sum_congr rfl fun k _ => congrArg e (lift_row p k)

theorem centred_apply (z : FVec Ideal S128x10 .f32) (p : Fin 128) (q : Fin 10) :
    centred z (ix2 p q) = z (ix2 p q) - Cert.Gcn.rowMax (Ideal.ofBits .f32 0xFF800000#32) z p := by
  unfold centred
  rw [subf_apply, Cert.LibColBroadcast.broadcastTo_a1_ab_apply, Cert.LibColumnCast.shapeCast_a_a1_apply, rowMaxV_apply]

theorem rowLogSoftmax_eq (z : FVec Ideal S128x10 .f32) :
    rowLogSoftmax z = Cert.Gcn.logSoftmaxRows (Ideal.ofBits .f32 0xFF800000#32) z := by
  funext i
  obtain ⟨p, q, rfl⟩ : ∃ (p : Fin 128) (q : Fin 10), i = ix2 p q := ⟨i 0, i 1, eq_ix2 i⟩
  unfold rowLogSoftmax
  rw [subf_apply, Cert.LibColBroadcast.broadcastTo_a1_ab_apply, log_apply, Cert.LibColumnCast.shapeCast_a_a1_apply,
    rowSum_apply, Cert.Gcn.logSoftmaxRows_apply]
  simp only [exp_apply, centred_apply]

/-- The body's payload: the logarithm of the softmax of the rows of the product with the transposed weights plus the
    bias row. -/
theorem pay_eq (x0 : Vec Ideal S128x64 .f32) (x1 : Vec Ideal S10x64 .f32) (x2 : Vec Ideal S1x10 .f32) :
    k6_pay1 (F := Ideal) x0 x1 x2
      = Cert.Gcn.logSoftmaxRows (Ideal.ofBits .f32 0xFF800000#32) (Cert.Gcn.addRow (Cert.Gcn.linear x0 x1) x2) := by
  rw [pay_steps, rowLogSoftmax_eq, logits_eq]

end Cert.KernelIdeal.Classifier

end
-- ==== Proof.ClassifierRegion.lean ====
/-
  The classifier region's output array, as one function of the arrays the region finds.

  The region's grid has one point, and at it every window's block is its whole array (every index map is constantly
  zero, and a block's element sits at block index × block size + its coordinate inside the block). So each input block
  is the array itself, what the one point writes back is the body's value on the whole arrays, and that one block
  covers the output array: the array ends holding the logarithm of the softmax of the rows of
  (pooled features) · (weights)ᵀ + (bias row).
-/
import proofs.«168690_j50672024158926_1_alg».proof.Proof.Gen.KernelIdeal.Frame
import proofs.«168690_j50672024158926_1_alg».proof.Proof.ClassifierBlock
import Idealize.ShloMosaic.Lib.Pipeline.Value

noncomputable section

namespace Cert.KernelIdeal.Classifier

open Cert.KernelIdeal Cert.KernelIdeal.Gen Idealize.ShloMosaic Idealize.ShloMosaic.TcCoe Idealize.ShloMosaic.ValueIdx
  Idealize.SL.Sem

variable (V : (c : Dev nD) → (b : Ref sig .tc) → Buf (Elt Ideal) ((c : Thread nD τ).loc b))

theorem offsets_zero : (![0, 0] : Fin 2 → Nat) = fun _ => 0 := funext fun a => by fin_cases a <;> rfl

/-- Every window's block index is zero on both axes at every point of the grid. -/
theorem index_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled features' block is the whole array. -/
theorem block_features (c : Dev nD) (t : Fin cfg6.N) :
    (iblk6 V c 0 t : S128x64.Idx → EReal) = V c main_v82 := by
  obtain ⟨e0, e1, -⟩ := index_zero t
  funext y
  show V c main_v82 (((cfg6.win 0).blk t).view.emb y) = V c main_v82 y
  refine congrArg (V c main_v82) (funext fun a => Fin.ext ?_)
  match a with
  | ⟨0, _⟩ => show win6_0.index t (0 : Fin 2) * 128 + 1 * (y 0).val = (y 0).val; omega
  | ⟨1, _⟩ => show win6_0.index t (1 : Fin 2) * 64 + 1 * (y 1).val = (y 1).val; omega

/-- The weights' block is the whole array. -/
theorem block_weights (c : Dev nD) (t : Fin cfg6.N) :
    (iblk6 V c 1 t : S10x64.Idx → EReal) = V c main_arg10 := by
  obtain ⟨-, -, e0, e1, -⟩ := index_zero t
  funext y
  show V c main_arg10 (((cfg6.win 1).blk t).view.emb y) = V c main_arg10 y
  refine congrArg (V c main_arg10) (funext fun a => Fin.ext ?_)
  match a with
  | ⟨0, _⟩ => show win6_1.index t (0 : Fin 2) * 10 + 1 * (y 0).val = (y 0).val; omega
  | ⟨1, _⟩ => show win6_1.index t (1 : Fin 2) * 64 + 1 * (y 1).val = (y 1).val; omega

/-- The bias row's block is the whole array. -/
theorem block_bias (c : Dev nD) (t : Fin cfg6.N) :
    (iblk6 V c 2 t : S1x10.Idx → EReal) = V c main_v83 := by
  obtain ⟨-, -, -, -, e0, e1, -⟩ := index_zero t
  funext y
  show V c main_v83 (((cfg6.win 2).blk t).view.emb y) = V c main_v83 y
  refine congrArg (V c main_v83) (funext fun a => Fin.ext ?_)
  match a with
  | ⟨0, _⟩ => show win6_2.index t (0 : Fin 2) * 1 + 1 * (y 0).val = (y 0).val; omega
  | ⟨1, _⟩ => show win6_2.index t (1 : Fin 2) * 10 + 1 * (y 1).val = (y 1).val; omega

/-- What the output array ends holding. -/
abbrev result (c : Dev nD) : S128x10.Idx → EReal :=
  Cert.Gcn.logSoftmaxRows (Ideal.ofBits .f32 0xFF800000#32)
    (Cert.Gcn.addRow (Cert.Gcn.linear (V c main_v82) (V c main_arg10)) (V c main_v83))

/-- What the point writes back is its block of the result. -/
theorem flushed6_eq (c : Dev nD) (t : Fin cfg6.N) :
    (dat6 (F := Ideal) V c).flushed 3 t = ((cfg6.win 3).blk t).view.read (Elt Ideal) (result V c) := by
  show (cfg6.win 3).cut (grid6.coords t) ((dat6 V c).after 3 t) = _
  rw [after6_3]
  unfold out6_3
  rw [View.canon_unit_zero offsets_zero]
  simp only [View.ld_unit_zero (S := S128x64) offsets_zero, View.ld_unit_zero (S := S10x64) offsets_zero,
    View.ld_unit_zero (S := S1x10) offsets_zero]
  rw [pay_eq (iblk6 V c 0 t) (iblk6 V c 1 t) (iblk6 V c 2 t), block_features V c t, block_weights V c t, block_bias V c t]
  obtain ⟨-, -, -, -, -, -, e0, e1⟩ := index_zero t
  funext y
  show result V c y = result V c (((cfg6.win 3).blk t).view.emb y)
  refine congrArg (result V c) (funext fun a => Fin.ext ?_)
  match a with
  | ⟨0, _⟩ => show (y 0).val = win6_3.index t (0 : Fin 2) * 128 + 1 * (y 0).val; omega
  | ⟨1, _⟩ => show (y 1).val = win6_3.index t (1 : Fin 2) * 10 + 1 * (y 1).val; omega

/-- An index of the array is in point `t`'s block iff each coordinate is in the block's range on its axis. -/
theorem mem_blk6 (t : Fin cfg6.N) (i : S128x10.Idx) :
    i ∈ ((cfg6.win 3).blk t).view.set ↔ ∀ a : Fin 2, win6_3.index t a * S128x10.size a ≤ (i a).val
      ∧ (i a).val < win6_3.index t a * S128x10.size a + S128x10.size a := by
  show i ∈ ((View.whole main_v84).slice (win6_3.rect t)).set ↔ _
  rw [View.set_slice_whole, Rect.mem_set_unit]
  exact Iff.rfl

/-- The one block covers the array. -/
theorem cover6 (i : S128x10.Idx) : ∃ t : Fin cfg6.N, (cfg6.win 3).flush t = true ∧ i ∈ ((cfg6.win 3).blk t).view.set := by
  refine ⟨t6_0, flush6_3 t6_0, ?_⟩
  obtain ⟨-, -, -, -, -, -, e0, e1⟩ := index_zero t6_0
  have h0 : (i 0).val < 128 := (i 0).isLt
  have h1 : (i 1).val < 10 := (i 1).isLt
  rw [mem_blk6]
  intro a
  match a with
  | ⟨0, _⟩ => show win6_3.index t6_0 (0 : Fin 2) * 128 ≤ (i 0).val ∧ (i 0).val < win6_3.index t6_0 (0 : Fin 2) * 128 + 128; omega
  | ⟨1, _⟩ => show win6_3.index t6_0 (1 : Fin 2) * 10 ≤ (i 1).val ∧ (i 1).val < win6_3.index t6_0 (1 : Fin 2) * 10 + 10; omega

/-- The output array after the region: the logarithm of the softmax of the rows of the product with the transposed
    weights plus the bias row, of the arrays as the region finds them. -/
theorem final6 (c : Dev nD) :
    (Gen.dat6 (F := Ideal) V c).arrAt 3 cfg6.N
      = Cert.Gcn.logSoftmaxRows (Ideal.ofBits .f32 0xFF800000#32)
          (Cert.Gcn.addRow (Cert.Gcn.linear (V c main_v82) (V c main_arg10)) (V c main_v83)) :=
  (dat6 (F := Ideal) V c).arrAt_eq_of_cover 3 (result V c) (fun t _ => flushed6_eq V c t) cover6

end Cert.KernelIdeal.Classifier

end
-- ==== Proof.RefClassifier.lean ====
/-
  The reference's classifier, read as the specification's functions.

  The logits are the pooled features times the transposed weights plus the bias row: entry (p, q) is the sum over k of
  pooled (p, k) · weight (q, k), plus bias q. The logarithm of the softmax then takes, row by row, the maximum m of the
  row (a fold of max started at minus infinity; the further maximum with minus infinity that is taken afterwards
  changes nothing, because such a fold is never below its starting value), the differences z − m, and subtracts from
  each difference the logarithm of the row's sum of the exponentials of the differences.
-/
import proofs.«168690_j50672024158926_1_alg».proof.Proof.Gen.ReferenceIdeal.Read
import proofs.«168690_j50672024158926_1_alg».proof.Proof.Spec
import proofs.«168690_j50672024158926_1_alg».proof.Proof.LibMatmulAt

noncomputable section

open scoped BigOperators

namespace Cert.ReferenceIdeal.Classifier

open Cert.ReferenceIdeal Cert.ReferenceIdeal.Gen Cert.ReferenceIdeal.Read Idealize.ShloMosaic Idealize.ShloMosaic.ValueIdx
  Idealize.ShloMosaic.StableHlo

/-- A fold of `max` is at least its starting value, so a further maximum with that value changes nothing. -/
theorem max_lo_rowMax (lo : EReal) (z : (⟨2, ![128, 10]⟩ : Shape).Idx → EReal) (p : Fin 128) :
    max lo (Cert.Gcn.rowMax lo z p) = Cert.Gcn.rowMax lo z p :=
  max_eq_right ((Finset.le_fold_max lo).2 (Or.inl le_rfl))

/-- The host's maximum over each row, started at minus infinity, is the specification's row maximum. -/
theorem hostRowMax (z : (⟨S128x10, .f32⟩ : BufTy).Contents (Elt Ideal)) (p : Fin 128) :
    Host.reduce (FloatOps.maximumf (F := Ideal) (φ := .f32)) z (val_main_call3_cst (F := Ideal)) reducesTo_S128x10_S128_d1 h_S_ (ix1 p)
      = Cert.Gcn.rowMax (Ideal.ofBits .f32 0xFF800000#32) z p := by
  rw [Host.reduce_eq_fold_single (FloatOps.maximumf (F := Ideal) (φ := .f32)) z _ reducesTo_S128x10_S128_d1 (by decide) h_S_ (ix1 p)]
  exact congrArg (fun f : Fin 10 → EReal => (Finset.univ : Finset (Fin 10)).fold max (Ideal.ofBits .f32 0xFF800000#32) f)
    (funext fun k => congrArg z (funext fun a => Fin.ext (by match a with | ⟨0, _⟩ => rfl | ⟨1, _⟩ => rfl)))

section Stages

variable (x0 : (⟨S100000x64, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S10x64, .f32⟩ : BufTy).Contents (Elt Ideal)) (x11 : (⟨S10, .f32⟩ : BufTy).Contents (Elt Ideal))

/-- The logits: the product with the transposed weights plus the bias row. -/
theorem ref_v95 :
    val_main_v95 (F := Ideal) x0 x1 x2 x3 x4 x5 x6 x7 x8 x9 x10 x11
      = Cert.Gcn.addRow (Cert.Gcn.linear (val_main_v90 (F := Ideal) x0 x1 x2 x3 x4 x5 x6 x7 x8 x9) x10)
          (broadcastInDim S1x10 ![1] bcast_S10_S1x10_1 x11) := by
  funext i
  obtain ⟨p, q, rfl⟩ : ∃ (p : Fin 128) (q : Fin 10), i = ix2 p q := ⟨i 0, i 1, eq_ix2 i⟩
  have e1 : ∀ k : Fin 64, idx_main_v91 (ix2 k q) = ix2 q k := fun k =>
    funext fun a => Fin.ext (by match a with | ⟨0, _⟩ => rfl | ⟨1, _⟩ => rfl)
  have e2 : idx_main_v94 (ix2 p q) = ix2 (0 : Fin 1) q :=
    funext fun a => Fin.ext (by match a with | ⟨0, _⟩ => rfl | ⟨1, _⟩ => rfl)
  rw [val_main_v95_apply, val_main_v94_apply, Cert.Gcn.addRow_apply, Cert.Gcn.linear_apply, e2]
  unfold val_main_v92
  generalize val_main_v90 (F := Ideal) x0 x1 x2 x3 x4 x5 x6 x7 x8 x9 = y
  rw [MatmulAt.dotGeneral_ix2 dot_S128x64_S64x10_S128x10_1_0_0_1_n_n rfl rfl lhs_main_v92_0 lhs_main_v92_1 rhs_main_v92_0 rhs_main_v92_1 none y
    (val_main_v91 (F := Ideal) x10) p q]
  simp only [val_main_v91_apply, e1, Ideal.addf_def]
  rfl

/-- The row maximum the logarithm of the softmax starts from. -/
theorem ref_call3_v0 (p : Fin 128) :
    val_main_call3_v0 (F := Ideal) x0 x1 x2 x3 x4 x5 x6 x7 x8 x9 x10 x11 (ix1 p)
      = Cert.Gcn.rowMax (Ideal.ofBits .f32 0xFF800000#32) (val_main_v95 (F := Ideal) x0 x1 x2 x3 x4 x5 x6 x7 x8 x9 x10 x11) p := by
  unfold val_main_call3_v0
  generalize val_main_v95 (F := Ideal) x0 x1 x2 x3 x4 x5 x6 x7 x8 x9 x10 x11 = z
  exact hostRowMax z p

/-- The differences from the row maximum. -/
theorem ref_call3_v5 (p : Fin 128) (q : Fin 10) :
    val_main_call3_v5 (F := Ideal) x0 x1 x2 x3 x4 x5 x6 x7 x8 x9 x10 x11 (ix2 p q)
      = val_main_v95 (F := Ideal) x0 x1 x2 x3 x4 x5 x6 x7 x8 x9 x10 x11 (ix2 p q)
          - Cert.Gcn.rowMax (Ideal.ofBits .f32 0xFF800000#32) (val_main_v95 (F := Ideal) x0 x1 x2 x3 x4 x5 x6 x7 x8 x9 x10 x11) p := by
  have e4 : idx_main_call3_v4 (ix2 p q) = ix2 p (0 : Fin 1) :=
    funext fun a => Fin.ext (by match a with | ⟨0, _⟩ => rfl | ⟨1, _⟩ => rfl)
  have e3 : idx_main_call3_v3 (ix2 p (0 : Fin 1)) = ix1 p :=
    funext fun a => Fin.ext (by match a with | ⟨0, _⟩ => rfl)
  rw [val_main_call3_v5_apply, val_main_call3_v4_apply, e4, val_main_call3_v3_apply, e3, val_main_call3_v2_apply,
    val_main_call3_v1_apply, val_main_call3_cst_0_apply, ref_call3_v0]
  simp only [Ideal.subf_def, Ideal.maximumf_def, Ideal.ofBits_def]
  rw [max_lo_rowMax]

/-- The reference's result: the logarithm of the softmax of every row of the logits. -/
theorem ref_v96 :
    val_main_v96 (F := Ideal) x0 x1 x2 x3 x4 x5 x6 x7 x8 x9 x10 x11
      = Cert.Gcn.logSoftmaxRows (Ideal.ofBits .f32 0xFF800000#32)
          (Cert.Gcn.addRow (Cert.Gcn.linear (val_main_v90 (F := Ideal) x0 x1 x2 x3 x4 x5 x6 x7 x8 x9) x10)
            (broadcastInDim S1x10 ![1] bcast_S10_S1x10_1 x11)) := by
  rw [← ref_v95]
  funext i
  obtain ⟨p, q, rfl⟩ : ∃ (p : Fin 128) (q : Fin 10), i = ix2 p q := ⟨i 0, i 1, eq_ix2 i⟩
  have e10 : idx_main_call3_v10 (ix2 p q) = ix2 p (0 : Fin 1) :=
    funext fun a => Fin.ext (by match a with | ⟨0, _⟩ => rfl | ⟨1, _⟩ => rfl)
  have e8 : idx_main_call3_v8 (ix2 p (0 : Fin 1)) = ix1 p :=
    funext fun a => Fin.ext (by match a with | ⟨0, _⟩ => rfl)
  have e7 : ∀ k : Fin 10, idx_main_call3_v7 (ix1 p) k = ix2 p k := fun k =>
    funext fun a => Fin.ext (by match a with | ⟨0, _⟩ => rfl | ⟨1, _⟩ => rfl)
  rw [val_main_v96_apply, val_main_call3_v10_apply, e10, val_main_call3_v9_apply, val_main_call3_v8_apply, e8,
    val_main_call3_v7_apply, val_main_call3_cst_1_apply, Cert.Gcn.logSoftmaxRows_apply, ref_call3_v5]
  simp only [e7, val_main_call3_v6_apply, ref_call3_v5, Ideal.subf_def, Ideal.hostUnary_exp_def, Ideal.hostUnary_log_def,
    Ideal.ofBits_def, Ideal.ofBits_zero_f32, zero_add]

end Stages

end Cert.ReferenceIdeal.Classifier

end
-- ==== Proof.ChainLayer3.lean ====
/-
  The third layer, the pooling and the classifier.

  The host aggregates the third layer's transformed features over the edges; region 5 adds the third bias row (no
  clipping in the last layer); the host adds every node's row into its graph's row; region 6 computes the classifier's
  logits from the pooled features and takes the logarithm of each row's softmax. The two results — the pooled features
  and the classifier's output — hold the reference's two results of the same arguments.
-/
import proofs.«168690_j50672024158926_1_alg».proof.Proof.ChainLayer2
import proofs.«168690_j50672024158926_1_alg».proof.Proof.BiasRegion5
import proofs.«168690_j50672024158926_1_alg».proof.Proof.ClassifierRegion
import proofs.«168690_j50672024158926_1_alg».proof.Proof.RefClassifier

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the third aggregation -/

/-- Carried: no operation of the stretch writes it. -/
theorem at11_arg2 (c : Dev nD) :
    W11 m ρ c (Proc.devRef .tc main_arg2) = m ((c : Thread nD τ).loc main_arg2) := by
  have h := at10_arg2 m ρ c
  show StableHlo.after hostOps5 (W10 m ρ c) (Proc.devRef .tc main_arg2) = _
  generalize W10 m ρ c = F at h ⊢
  after_results_simp
  exact h
/-- Carried: no operation of the stretch writes it. -/
theorem at11_arg10 (c : Dev nD) :
    W11 m ρ c (Proc.devRef .tc main_arg10) = m ((c : Thread nD τ).loc main_arg10) := by
  have h := at10_arg10 m ρ c
  show StableHlo.after hostOps5 (W10 m ρ c) (Proc.devRef .tc main_arg10) = _
  generalize W10 m ρ c = F at h ⊢
  after_results_simp
  exact h
/-- Carried: no operation of the stretch writes it. -/
theorem at11_arg11 (c : Dev nD) :
    W11 m ρ c (Proc.devRef .tc main_arg11) = m ((c : Thread nD τ).loc main_arg11) := by
  have h := at10_arg11 m ρ c
  show StableHlo.after hostOps5 (W10 m ρ c) (Proc.devRef .tc main_arg11) = _
  generalize W10 m ρ c = F at h ⊢
  after_results_simp
  exact h
/-- The third layer's weighted sum over incoming edges. -/
theorem at11_v77 (c : Dev nD) :
    W11 m ρ c (Proc.devRef .tc main_v77) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hh := at10_v64 m ρ c
  have h3 := at10_v3 m ρ c
  have h6 := at10_v6 m ρ c
  have h31 := at10_v31 m ρ c
  show StableHlo.after hostOps5 (W10 m ρ c) (Proc.devRef .tc main_v77) = _
  generalize W10 m ρ c = F at hh h3 h6 h31 ⊢
  after_results_simp
  rw [hh, h3, h6, h31]
  rfl
/-- The third bias vector as a row. -/
theorem at11_v78 (c : Dev nD) :
    W11 m ρ c (Proc.devRef .tc main_v78) = val_main_v85 (F := Ideal) (m ((c : Thread nD τ).loc main_arg9)) := by
  have h := at10_arg9 m ρ c
  show StableHlo.after hostOps5 (W10 m ρ c) (Proc.devRef .tc main_v78) = _
  generalize W10 m ρ c = F at h ⊢
  after_results_simp
  rw [h]
  exact Cert.LibRowOfVector.shapeCast_eq_broadcastInDim (b := 64) (by decide) _ _ _

/-! ## After region 5 -/

theorem at12_arg2 (c : Dev nD) :
    W12 m ρ c (Proc.devRef .tc main_arg2) = m ((c : Thread nD τ).loc main_arg2) :=
  (W12_of_ne m ρ c main_arg2 (by decide)).trans (at11_arg2 m ρ c)
theorem at12_arg10 (c : Dev nD) :
    W12 m ρ c (Proc.devRef .tc main_arg10) = m ((c : Thread nD τ).loc main_arg10) :=
  (W12_of_ne m ρ c main_arg10 (by decide)).trans (at11_arg10 m ρ c)
theorem at12_arg11 (c : Dev nD) :
    W12 m ρ c (Proc.devRef .tc main_arg11) = m ((c : Thread nD τ).loc main_arg11) :=
  (W12_of_ne m ρ c main_arg11 (by decide)).trans (at11_arg11 m ρ c)
/-- The third layer's output: bias added. -/
theorem at12_v79 (c : Dev nD) :
    W12 m ρ c (Proc.devRef .tc main_v79) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 2).trans ((Cert.KernelIdeal.Bias.final5 (V11 m ρ) c).trans ?_)
  rw [Cert.ReferenceIdeal.Bias.ref_v87]
  exact congrArg₂ (Cert.Gcn.addRow (a := 100000) (b := 64)) (at11_v77 m ρ c) (at11_v78 m ρ c)

/-! ## After the pooling -/

/-- Carried: no operation of the stretch writes it. -/
theorem at13_arg10 (c : Dev nD) :
    W13 m ρ c (Proc.devRef .tc main_arg10) = m ((c : Thread nD τ).loc main_arg10) := by
  have h := at12_arg10 m ρ c
  show StableHlo.after hostOps6 (W12 m ρ c) (Proc.devRef .tc main_arg10) = _
  generalize W12 m ρ c = F at h ⊢
  after_results_simp
  exact h
/-- The pooled features: every node's row added into its graph's row. -/
theorem at13_v82 (c : Dev nD) :
    W13 m ρ c (Proc.devRef .tc main_v82) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hh := at12_v79 m ρ c
  have h2 := at12_arg2 m ρ c
  show StableHlo.after hostOps6 (W12 m ρ c) (Proc.devRef .tc main_v82) = _
  generalize W12 m ρ c = F at hh h2 ⊢
  after_results_simp
  rw [hh, h2]
  rfl
/-- The classifier's bias vector as a row. -/
theorem at13_v83 (c : Dev nD) :
    W13 m ρ c (Proc.devRef .tc main_v83) = val_main_v93 (F := Ideal) (m ((c : Thread nD τ).loc main_arg11)) := by
  have h := at12_arg11 m ρ c
  show StableHlo.after hostOps6 (W12 m ρ c) (Proc.devRef .tc main_v83) = _
  generalize W12 m ρ c = F at h ⊢
  after_results_simp
  rw [h]
  exact Cert.LibRowOfVector.shapeCast_eq_broadcastInDim (b := 10) (by decide) _ _ _

/-! ## After region 6: the two results -/

/-- The pooled features are an input of region 6, which leaves them as it found them. -/
theorem at14_v82 (c : Dev nD) :
    W14 m ρ c (Proc.devRef .tc main_v82) = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_arr m ρ c 0).trans (((dat6 (V13 m ρ) c).arrAt_in 0 rfl _).trans ((A_eq6 (V13 m ρ) c 0).trans (at13_v82 m ρ c)))

/-- The classifier's output: the logarithm of the softmax of every row of the logits. -/
theorem at14_v84 (c : Dev nD) :
    W14 m ρ c (Proc.devRef .tc main_v84) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W14_arr m ρ c 3).trans ((Cert.KernelIdeal.Classifier.final6 (V13 m ρ) c).trans ?_)
  rw [Cert.ReferenceIdeal.Classifier.ref_v96]
  exact congrArg (Cert.Gcn.logSoftmaxRows (a := 128) (b := 10) (Ideal.ofBits .f32 0xFF800000#32))
    (congrArg₂ (Cert.Gcn.addRow (a := 128) (b := 10))
      (congrArg₂ (Cert.Gcn.linear (a := 128) (n := 64) (b := 10)) (at13_v82 m ρ c) (at13_arg10 m ρ c))
      (at13_v83 m ρ c))

end Cert.KernelIdeal.Chain

end
-- ==== Proof.lean ====
/-
  A three-layer graph convolution network with pooling and a classifier: the kernel against its reference.

  Both programs normalise the edges on the host in the same words, and then apply three times: a dense transform of
  every node's features by a transposed weight matrix, a normalised sum over each node's incoming edges, a bias row
  (clipped below at zero in the first two layers); then add every node's row into its graph's row, transform the pooled
  features once more, add a bias row and take the logarithm of each row's softmax. The kernel does the dense
  transforms, the bias steps and the classifier in seven launches over blocks of rows and everything else on the host;
  the reference does all of it on the host. On the extended reals each launch leaves, in its output array, one function
  of the arrays it read — the product with the transposed weights, the row added (and clipped), the rows'
  log-softmax — and the reference's corresponding host operations compute the same function, so buffer by buffer the
  kernel's memory holds the reference's stage of the same arguments, and the two results are equal. Nothing here needs
  the inputs to be finite: every equation is one expression read two ways.

  The frames of the two kernel programs are the generated ones; the reference's is its generated run with the results
  dropped; the idealisation rewrote nothing, so it preserves trivially.
-/
import proofs.«168690_j50672024158926_1_alg».proof.Defs
import proofs.«168690_j50672024158926_1_alg».proof.Proof.Gen.Kernel
import proofs.«168690_j50672024158926_1_alg».proof.Proof.Gen.Kernel.Skeleton
import proofs.«168690_j50672024158926_1_alg».proof.Proof.Gen.Kernel.Launch
import proofs.«168690_j50672024158926_1_alg».proof.Proof.Gen.Kernel.Points
import proofs.«168690_j50672024158926_1_alg».proof.Proof.Gen.Kernel.Frame
import proofs.«168690_j50672024158926_1_alg».proof.Proof.Gen.KernelIdeal
import proofs.«168690_j50672024158926_1_alg».proof.Proof.Gen.KernelIdeal.Skeleton
import proofs.«168690_j50672024158926_1_alg».proof.Proof.Gen.KernelIdeal.Launch
import proofs.«168690_j50672024158926_1_alg».proof.Proof.Gen.KernelIdeal.Points
import proofs.«168690_j50672024158926_1_alg».proof.Proof.Gen.KernelIdeal.Frame
import proofs.«168690_j50672024158926_1_alg».proof.Proof.Gen.ReferenceIdeal
import proofs.«168690_j50672024158926_1_alg».proof.Proof.Gen.ReferenceIdeal.Run
import proofs.«168690_j50672024158926_1_alg».proof.Proof.Gen.ReferenceIdeal.Read
import proofs.«168690_j50672024158926_1_alg».proof.Proof.Gen.Pre_finite_inputs
import proofs.«168690_j50672024158926_1_alg».proof.Proof.KernelRun
import proofs.«168690_j50672024158926_1_alg».proof.Proof.ChainLayer3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and leaves its arguments unchanged: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals the kernel's pooled features and classifier output are the reference's: both are the
    reference's two stages of the (agreeing) arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.at14_v82 m ρ c),
        (h c).2.1.trans (Cert.KernelIdeal.Chain.at14_v84 m ρ c), (h c).2.2⟩)
      (Cert.KernelIdeal.Named.run_named m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9, e10, e11⟩ := hagree c
      rw [(h c).1, Cert.ReferenceIdeal.Read.val_main_v90_eq, e0, e1, e2, e3, e4, e5, e6, e7, e8, e9]
    · obtain ⟨e0, e1, e2, e3, e4, e5, e6, e7, e8, e9, e10, e11⟩ := hagree c
      rw [(h c).2.1, Cert.ReferenceIdeal.Read.val_main_v96_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
